-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x3x8192 : Shape := ⟨3, ![4, 3, 8192]⟩
abbrev S16x4x8192 : Shape := ⟨3, ![16, 4, 8192]⟩
abbrev S4x512x3 : Shape := ⟨3, ![4, 512, 3]⟩
abbrev S4x512x1 : Shape := ⟨3, ![4, 512, 1]⟩
abbrev S4x3x512 : Shape := ⟨3, ![4, 3, 512]⟩
abbrev S4x1x512 : Shape := ⟨3, ![4, 1, 512]⟩
abbrev S1x4x512 : Shape := ⟨3, ![1, 4, 512]⟩
abbrev S4x512x128 : Shape := ⟨3, ![4, 512, 128]⟩
abbrev S4x512x512 : Shape := ⟨3, ![4, 512, 512]⟩
abbrev S4x512 : Shape := ⟨2, ![4, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 28
  | .vmem => 13
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x3x8192, .f32⟩
  | .hbm, ⟨11, _⟩ => ⟨S_, .f32⟩
  | .hbm, ⟨12, _⟩ => ⟨S4x3x8192, .f32⟩
  | .hbm, ⟨13, _⟩ => ⟨S4x3x8192, .f32⟩
  | .hbm, ⟨14, _⟩ => ⟨S4x8192x1, .f32⟩
  | .hbm, ⟨15, _⟩ => ⟨S16x4x8192, .f32⟩
  | .hbm, ⟨16, _⟩ => ⟨S4x8192, .f32⟩
  | .hbm, ⟨17, _⟩ => ⟨S_, .f32⟩
  | .hbm, ⟨18, _⟩ => ⟨S4x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x1, .f32⟩
  | .local _ .vmem, ⟨3, _⟩ => ⟨S4x512x1, .f32⟩
  | .local _ .vmem, ⟨4, _⟩ => ⟨S4x3x512, .f32⟩
  | .local _ .vmem, ⟨5, _⟩ => ⟨S4x3x512, .f32⟩
  | .local _ .vmem, ⟨6, _⟩ => ⟨S4x1x512, .f32⟩
  | .local _ .vmem, ⟨7, _⟩ => ⟨S4x1x512, .f32⟩
  | .local _ .vmem, ⟨8, _⟩ => ⟨S4x512x1, .f32⟩
  | .local _ .vmem, ⟨9, _⟩ => ⟨S4x512x1, .f32⟩
  | .local _ .vmem, ⟨10, _⟩ => ⟨S1x4x512, .f32⟩
  | .local _ .vmem, ⟨11, _⟩ => ⟨S1x4x512, .f32⟩
  | .local _ .vmem, ⟨12, _⟩ => ⟨S4x512x128, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v76 : BitVec 1 := Scalar.cmpi .eq arg1 c15_i32
  let v77 : BitVec 32 := Scalar.extui v76
  let c0_i32_57 : BitVec 32 := 0#32
  let v78 : BitVec 1 := Scalar.cmpi .ne v77 c0_i32_57
  v78

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  transposes_S4x8192x3_S4x3x8192_0_2_1 : S4x8192x3.Transposes [0, 2, 1] S4x3x8192
  bcast_S_S4x3x8192 : S_.BroadcastsInDim S4x3x8192 (![] : Fin 0 → Fin S4x3x8192.rank)
  inb_S4x512x128_S4x512x128_0_0_0 : ∀ a, (![0, 0, 0] : Fin 3 → Nat) a + S4x512x128.size a ≤ S4x512x128.size a
  h_S4x512x128 : 0 < S4x512x128.numel
  shapeCasts_S4x512x128_S4x512x128 : S4x512x128.ShapeCasts S4x512x128
  inb_S4x512x3_S4x512x1_0_0_0 : ∀ a, (![0, 0, 0] : Fin 3 → Nat) a + S4x512x1.size a ≤ S4x512x3.size a
  h_S4x512x1 : 0 < S4x512x1.numel
  inb_S4x3x512_S4x1x512_0_0_0 : ∀ a, (![0, 0, 0] : Fin 3 → Nat) a + S4x1x512.size a ≤ S4x3x512.size a
  h_S4x1x512 : 0 < S4x1x512.numel
  shapeCasts_S4x1x512_S4x1x512 : S4x1x512.ShapeCasts S4x1x512
  broadcasts_S4x512x1_S4x512x512 : S4x512x1.Broadcasts S4x512x512
  broadcasts_S4x1x512_S4x512x512 : S4x1x512.Broadcasts S4x512x512
  inb_S4x512x3_S4x512x1_0_0_1 : ∀ a, (![0, 0, 1] : Fin 3 → Nat) a + S4x512x1.size a ≤ S4x512x3.size a
  inb_S4x3x512_S4x1x512_0_1_0 : ∀ a, (![0, 1, 0] : Fin 3 → Nat) a + S4x1x512.size a ≤ S4x3x512.size a
  inb_S4x512x3_S4x512x1_0_0_2 : ∀ a, (![0, 0, 2] : Fin 3 → Nat) a + S4x512x1.size a ≤ S4x512x3.size a
  inb_S4x3x512_S4x1x512_0_2_0 : ∀ a, (![0, 2, 0] : Fin 3 → Nat) a + S4x1x512.size a ≤ S4x3x512.size a
  inb_S4x512x1_S4x512x1_0_0_0 : ∀ a, (![0, 0, 0] : Fin 3 → Nat) a + S4x512x1.size a ≤ S4x512x1.size a
  shapeCasts_S4x512x1_S4x512x1 : S4x512x1.ShapeCasts S4x512x1
  inb_S4x1x512_S4x1x512_0_0_0 : ∀ a, (![0, 0, 0] : Fin 3 → Nat) a + S4x1x512.size a ≤ S4x1x512.size a
  slices_S4x512x512_o0_0_0_S4x512x128 : S4x512x512.Slices ![0, 0, 0] S4x512x128
  slices_S4x512x512_o0_0_128_S4x512x128 : S4x512x512.Slices ![0, 0, 128] S4x512x128
  slices_S4x512x512_o0_0_256_S4x512x128 : S4x512x512.Slices ![0, 0, 256] S4x512x128
  slices_S4x512x512_o0_0_384_S4x512x128 : S4x512x512.Slices ![0, 0, 384] S4x512x128
  reduces_S4x512x512_S4x512 : S4x512x512.Reduces [1] S4x512
  slices_S4x512_o0_0_S1x512 : S4x512.Slices ![0, 0] S1x512
  shapeCasts_S1x512_S512 : S1x512.ShapeCasts S512
  inb_S1x4x512_S1x1x512_0_0_0 : ∀ a, (![0, 0, 0] : Fin 3 → Nat) a + S1x1x512.size a ≤ S1x4x512.size a
  h_S1x1x512 : 0 < S1x1x512.numel
  shapeCasts_S1x1x512_S512 : S1x1x512.ShapeCasts S512
  shapeCasts_S512_S1x1x512 : S512.ShapeCasts S1x1x512
  slices_S4x512_o1_0_S1x512 : S4x512.Slices ![1, 0] S1x512
  inb_S1x4x512_S1x1x512_0_1_0 : ∀ a, (![0, 1, 0] : Fin 3 → Nat) a + S1x1x512.size a ≤ S1x4x512.size a
  slices_S4x512_o2_0_S1x512 : S4x512.Slices ![2, 0] S1x512
  inb_S1x4x512_S1x1x512_0_2_0 : ∀ a, (![0, 2, 0] : Fin 3 → Nat) a + S1x1x512.size a ≤ S1x4x512.size a
  slices_S4x512_o3_0_S1x512 : S4x512.Slices ![3, 0] S1x512
  inb_S1x4x512_S1x1x512_0_3_0 : ∀ a, (![0, 3, 0] : Fin 3 → Nat) a + S1x1x512.size a ≤ S1x4x512.size a
  reduces_S4x512x128_S4x512 : S4x512x128.Reduces [2] S4x512
  shapeCasts_S4x512_S4x512x1 : S4x512.ShapeCasts S4x512x1
  shapeCasts_S4x8192x1_S4x8192 : S4x8192x1.ShapeCasts S4x8192
  reducesTo_S16x4x8192_S4x8192_d0 : S16x4x8192.ReducesTo [0] S4x8192
  reducesTo_S4x8192_S_d0_1 : S4x8192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1.size a ≤ S4x8192x1.size a
  hwx0_1 : ∀ i : grid0.Coords, EltTy.bits .f32 = 32 ∨ (Rect.block (s := S4x8192x1) S4x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x512.size a ≤ S4x3x8192.size a
  hwx0_2 : ∀ i : grid0.Coords, EltTy.bits .f32 = 32 ∨ (Rect.block (s := S4x3x8192) S4x3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S4x1x8192.size a
  hwx0_3 : ∀ i : grid0.Coords, EltTy.bits .f32 = 32 ∨ (Rect.block (s := S4x1x8192) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1.size a ≤ S4x8192x1.size a
  hwx0_4 : ∀ i : grid0.Coords, EltTy.bits .f32 = 32 ∨ (Rect.block (s := S4x8192x1) S4x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x512.size a ≤ S16x4x8192.size a
  hwx0_5 : ∀ i : grid0.Coords, EltTy.bits .f32 = 32 ∨ (Rect.block (s := S16x4x8192) S1x4x512.size (cc0_transform_5 i) (hinb0_5 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x3x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S4x512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x4x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Dist.lean ====
/-
  The pairwise squared distances of two clouds of points in three coordinates, and their nearest-neighbour
  minima, on the extended reals.

  For point clouds `a`, `b` : [4, 8192, 3] (batch, point, coordinate) the entry (p, n, m) is
  ‖a_n‖² + ‖b_m‖² − 2 a_n·b_m. It is written here in two arrangements:
    `pr` — the norms' sum minus twice the dot product summed over the coordinate;
    `pk` — the norms' sum plus the three products a_{n,d} · (−2 · b_{m,d}) added left to right.
  On finite entries the two are one real number (`pk_eq_pr`): distributing −2 over the dot product needs
  every factor to be real, which is where finiteness of the inputs is used.
  `rowMin` / `colMin` are the infima over the second / the first point index: the nearest-neighbour
  distances in the two directions. `tile` is the same entry written over one (512 × 512) tile's four
  input blocks; `fold4` the running minimum of one accumulator lane against the tile's four 128-lane chunks.
  `tail` is the common end of both programs: the two means, added.
-/
import Idealize.ShloMosaic.PureOps.Ideal
import Idealize.ShloMosaic.Lib.ValueIdx

noncomputable section

namespace Cert.Chamfer

open Idealize.ShloMosaic Idealize.ShloMosaic.ValueIdx

/-- The two argument arrays' shape: batch, point, coordinate. -/
abbrev Pts : Shape := ⟨3, ![4, 8192, 3]⟩
/-- A nearest-neighbour table: batch, point. -/
abbrev Mat : Shape := ⟨2, ![4, 8192]⟩
/-- A scalar. -/
abbrev Sc : Shape := ⟨0, ![]⟩
/-- One tile's input blocks: 512 points of `a`; their squared norms; 512 points of `−2·b`, coordinate-major; their squared norms. -/
abbrev BlkA : Shape := ⟨3, ![4, 512, 3]⟩
abbrev BlkX : Shape := ⟨3, ![4, 512, 1]⟩
abbrev BlkK : Shape := ⟨3, ![4, 3, 512]⟩
abbrev BlkY : Shape := ⟨3, ![4, 1, 512]⟩

/-! ## The constants' values -/

theorem ofBits_zero : Ideal.ofBits .f32 0x00000000#32 = (0 : EReal) := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_negTwo : Ideal.ofBits .f32 0xC0000000#32 = ((-2 : ℝ) : EReal) := by
  simp [Ideal.ofBits, Ideal.ieee, -EReal.coe_mul]; norm_num

/-! ## The entries -/

/-- A point's squared norm as both programs sum it: from the zero word, over the three coordinates. -/
def sqn (x : Pts.Idx → EReal) (p : Fin 4) (n : Fin 8192) : EReal :=
  Ideal.ofBits .f32 0x00000000#32 + ∑ k : Fin 3, x (ix3 p n k) * x (ix3 p n k)

/-- The entry as the tiled program forms it: the second cloud pre-scaled by −2, three products added left to right. -/
def pk (a b : Pts.Idx → EReal) (p : Fin 4) (n m : Fin 8192) : EReal :=
  (sqn a p n + sqn b p m)
    + ((a (ix3 p n 0) * (Ideal.ofBits .f32 0xC0000000#32 * b (ix3 p m 0))
        + a (ix3 p n 1) * (Ideal.ofBits .f32 0xC0000000#32 * b (ix3 p m 1)))
      + a (ix3 p n 2) * (Ideal.ofBits .f32 0xC0000000#32 * b (ix3 p m 2)))

/-- The entry as the plain program forms it: minus twice the dot product. -/
def pr (a b : Pts.Idx → EReal) (p : Fin 4) (n m : Fin 8192) : EReal :=
  (sqn a p n + sqn b p m) - Ideal.ofBits .f32 0x40000000#32 * ∑ k : Fin 3, a (ix3 p n k) * b (ix3 p m k)

/-- Every entry of an array is a real number. -/
def Finite (x : Pts.Idx → EReal) : Prop := ∀ i, ∃ r : ℝ, x i = (r : EReal)

/-- On real entries the two arrangements are the same number. -/
theorem pk_eq_pr (a b : Pts.Idx → EReal) (ha : Finite a) (hb : Finite b) (p : Fin 4) (n m : Fin 8192) :
    pk a b p n m = pr a b p n m := by
  unfold pk pr
  rw [Fin.sum_univ_three, ofBits_negTwo, ofBits_two]
  obtain ⟨a0, h0⟩ := ha (ix3 p n 0); obtain ⟨a1, h1⟩ := ha (ix3 p n 1); obtain ⟨a2, h2⟩ := ha (ix3 p n 2)
  obtain ⟨b0, g0⟩ := hb (ix3 p m 0); obtain ⟨b1, g1⟩ := hb (ix3 p m 1); obtain ⟨b2, g2⟩ := hb (ix3 p m 2)
  rw [h0, h1, h2, g0, g1, g2]
  simp only [← EReal.coe_mul, ← EReal.coe_add]
  rw [sub_eq_add_neg, ← EReal.coe_neg]
  congr 2
  ring

/-- Nearest point of the second cloud: the infimum of the entries over `m`. -/
def rowMin (P : Fin 4 → Fin 8192 → Fin 8192 → EReal) (p : Fin 4) (n : Fin 8192) : EReal := ⨅ m : Fin 8192, P p n m
/-- Nearest point of the first cloud: the infimum of the entries over `n`. -/
def colMin (P : Fin 4 → Fin 8192 → Fin 8192 → EReal) (p : Fin 4) (m : Fin 8192) : EReal := ⨅ n : Fin 8192, P p n m

/-! ## One tile -/

/-- The tile's entry (p, r, q) from its four input blocks: `x0` rows of `a`, `x1` their norms, `x2` the scaled
    columns of `b`, `x3` their norms. -/
def tile (x0 : BlkA.Idx → EReal) (x1 : BlkX.Idx → EReal) (x2 : BlkK.Idx → EReal) (x3 : BlkY.Idx → EReal)
    (p : Fin 4) (r q : Fin 512) : EReal :=
  (x1 (ix3 p r 0) + x3 (ix3 p 0 q))
    + ((x0 (ix3 p r 0) * x2 (ix3 p 0 q) + x0 (ix3 p r 1) * x2 (ix3 p 1 q)) + x0 (ix3 p r 2) * x2 (ix3 p 2 q))

/-- One accumulator lane folded with its lane of each of a tile row's four chunks of 128. -/
def fold4 (acc : EReal) (T : Fin 512 → EReal) (l : Fin 128) : EReal :=
  min (min (min (min acc (T ⟨l.val, by omega⟩)) (T ⟨128 + l.val, by omega⟩)) (T ⟨256 + l.val, by omega⟩))
    (T ⟨384 + l.val, by omega⟩)

/-- A lower bound of the fold is one of the accumulator and of the four chunk entries. -/
theorem le_fold4 (z acc : EReal) (T : Fin 512 → EReal) (l : Fin 128) :
    z ≤ fold4 acc T l ↔ z ≤ acc ∧ ∀ cc : Fin 4, z ≤ T ⟨128 * cc.val + l.val, by omega⟩ := by
  unfold fold4
  simp only [le_min_iff]
  constructor
  · rintro ⟨⟨⟨⟨h, h0⟩, h1⟩, h2⟩, h3⟩
    refine ⟨h, fun cc => ?_⟩
    match cc with
    | ⟨0, _⟩ => simpa using h0
    | ⟨1, _⟩ => simpa using h1
    | ⟨2, _⟩ => simpa using h2
    | ⟨3, _⟩ => simpa using h3
  · rintro ⟨h, hc⟩
    exact ⟨⟨⟨⟨h, by simpa using hc 0⟩, by simpa using hc 1⟩, by simpa using hc 2⟩, by simpa using hc 3⟩

/-! ## The two arrays the tiled program leaves, and the arithmetic of its running minima -/

/-- The first output array: batch, point, one. -/
abbrev O1 : Shape := ⟨3, ![4, 8192, 1]⟩
/-- The second output array: row tile, batch, point. -/
abbrev O2 : Shape := ⟨3, ![16, 4, 8192]⟩

/-- The nearest first-cloud point among the 512 of row tile `ii`. -/
def tileColMin (P : Fin 4 → Fin 8192 → Fin 8192 → EReal) (ii : Fin 16) (p : Fin 4) (m : Fin 8192) : EReal :=
  ⨅ r : Fin 512, P p ⟨512 * ii.val + r.val, by have := ii.isLt; have := r.isLt; omega⟩ m

/-- What the first output array ends holding: the row minima, on a trailing unit axis. -/
def o1 (P : Fin 4 → Fin 8192 → Fin 8192 → EReal) : O1.Idx → EReal := fun i => rowMin P (i 0) (i 1)
/-- What the second output array ends holding: per row tile, the column minima over that tile's rows. -/
def o2 (P : Fin 4 → Fin 8192 → Fin 8192 → EReal) : O2.Idx → EReal := fun i => tileColMin P (i 0) (i 1) (i 2)

/-- The infimum over the sixteen row tiles of the tiles' column minima is the column minimum: every point
    index is 512 · (its tile) + (its row in the tile). -/
theorem iInf_tileColMin (P : Fin 4 → Fin 8192 → Fin 8192 → EReal) (p : Fin 4) (m : Fin 8192) :
    ⨅ ii : Fin 16, tileColMin P ii p m = colMin P p m := by
  unfold tileColMin colMin
  apply le_antisymm
  · refine le_iInf fun n => ?_
    have hn := n.isLt
    refine (iInf_le _ (⟨n.val / 512, by omega⟩ : Fin 16)).trans ?_
    refine (iInf_le _ (⟨n.val % 512, by omega⟩ : Fin 512)).trans ?_
    exact le_of_eq (congrArg (fun k => P p k m) (Fin.ext (by show 512 * (n.val / 512) + n.val % 512 = n.val; omega)))
  · exact le_iInf fun ii => le_iInf fun r => iInf_le _ _

/-- One column tile's step of a lane's running minimum. If the accumulator's lower bounds are those of the
    entries of the lane's residue class (mod 128) in the column tiles before `j`, then folding in the lane's
    entry of each of tile `j`'s four chunks gives the lower bounds of the class through tile `j`: a column
    index in tile `j` is 512 · j + 128 · (its chunk) + (its lane). -/
theorem acc_step (P : Fin 8192 → EReal) (l : Fin 128) (j : ℕ) (hj : j < 16) (z acc : EReal)
    (hacc : z ≤ acc ↔ ∀ mm : Fin 8192, mm.val % 128 = l.val → mm.val / 512 < j → z ≤ P mm) :
    (z ≤ acc ∧ ∀ cc : Fin 4, z ≤ P ⟨512 * j + (128 * cc.val + l.val), by have := cc.isLt; have := l.isLt; omega⟩)
      ↔ ∀ mm : Fin 8192, mm.val % 128 = l.val → mm.val / 512 ≤ j → z ≤ P mm := by
  have hl := l.isLt
  constructor
  · rintro ⟨h1, h2⟩ mm hm hq
    by_cases hlt : mm.val / 512 < j
    · exact hacc.mp h1 mm hm hlt
    · have hmm := mm.isLt
      have hc : (mm.val % 512) / 128 < 4 := by omega
      have := h2 ⟨(mm.val % 512) / 128, hc⟩
      refine this.trans (le_of_eq (congrArg P (Fin.ext ?_)))
      show 512 * j + (128 * ((mm.val % 512) / 128) + l.val) = mm.val
      omega
  · intro h
    refine ⟨hacc.mpr fun mm hm hq => h mm hm (le_of_lt hq), fun cc => ?_⟩
    have hc := cc.isLt
    exact h _ (by show (512 * j + (128 * cc.val + l.val)) % 128 = l.val; omega)
      (by show (512 * j + (128 * cc.val + l.val)) / 512 ≤ j; omega)

/-- After the last column tile the infimum over the 128 lanes of the running minima is the row minimum:
    every column index lies in one residue class. -/
theorem iInf_lanes (P : Fin 8192 → EReal) (acc : Fin 128 → EReal)
    (hacc : ∀ (l : Fin 128) (z : EReal), z ≤ acc l ↔ ∀ mm : Fin 8192, mm.val % 128 = l.val → mm.val / 512 ≤ 15 → z ≤ P mm) :
    ⨅ l : Fin 128, acc l = ⨅ mm : Fin 8192, P mm := by
  refine eq_of_forall_le_iff fun z => ?_
  rw [le_iInf_iff, le_iInf_iff]
  constructor
  · intro h mm
    have hmm := mm.isLt
    exact (hacc ⟨mm.val % 128, by omega⟩ z).mp (h _) mm rfl (by omega)
  · intro h l
    exact (hacc l z).mpr fun mm _ _ => h mm

/-! ## The common end -/

/-- Both programs end alike: each table summed from zero and divided by its 32768 entries, the two means added. -/
def tail (h : Mat.ReducesTo [0, 1] Sc) (hu : 0 < Sc.numel) (x y : FVec Ideal Mat .f32) : FVec Ideal Sc .f32 :=
  addf (Host.divf (Host.reduceAdd (F := Ideal) x (constant (F := Ideal) Sc .f32 0x00000000#32) h hu)
      (constant (F := Ideal) Sc .f32 0x47000000#32))
    (Host.divf (Host.reduceAdd (F := Ideal) y (constant (F := Ideal) Sc .f32 0x00000000#32) h hu)
      (constant (F := Ideal) Sc .f32 0x47000000#32))

end Cert.Chamfer

end
-- ==== Proof.LibMinReduce.lean ====
/-
  A minimum taken along ONE axis, at the ideal float values, is the infimum over that axis's coordinates.

  At the ideal values `minimumf` is `min` on the extended reals, so a reduction with a minimum body from
  `+∞` along one axis is, at each reduced index `j`, the greatest lower bound of the source's entries at
  `j` with each coordinate `k` of the reduced axis put back (`Shape.Reduces.lift j k`). Stated for the
  in-kernel vector reduction and for the host's one-operand reduce, as an `⨅` over `Fin`: a form whose
  only law a proof needs is `le_iInf_iff`.
-/
import Idealize.ShloMosaic.PureOps.Ideal.Laws
import Idealize.ShloMosaic.PureOps.Reduce

noncomputable section

namespace Idealize.ShloMosaic.Ideal

/-- The f32 pattern of `+∞` denotes the top of the extended reals. -/
theorem ofBits_posInf_f32 : Ideal.ofBits .f32 0x7F800000#32 = (⊤ : EReal) := by
  simp [Ideal.ofBits, Ideal.ieee]

/-- A fold of `min` from the top over all of `Fin n` is the infimum of the entries. -/
theorem fold_min_top_eq_iInf {n : Nat} (f : Fin n → EReal) :
    (Finset.univ : Finset (Fin n)).fold min (⊤ : EReal) f = ⨅ k : Fin n, f k := by
  refine eq_of_forall_le_iff fun z => ?_
  rw [Finset.le_fold_min, le_iInf_iff]
  exact ⟨fun h k => h.2 k (Finset.mem_univ k), fun h => ⟨le_top, fun k _ => h k⟩⟩

/-- The in-kernel minimum along one axis from `+∞`, at a reduced index, is the infimum over that axis. -/
theorem multiReduction_minimumf_single_iInf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf_f32]
  exact fold_min_top_eq_iInf _

/-- The host's one-operand reduce with a minimum body from `+∞` along one axis is the same infimum. -/
theorem hostReduce_minimumf_single_iInf {s t u : Shape} {a : Fin s.rank} (x : FVec Ideal s .f32)
    (h' : s.ReducesTo [a] t) (h : s.Reduces [a] t) (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu]
  show (Finset.univ : Finset (Fin (s.size a))).fold min (Ideal.ofBits .f32 0x7F800000#32) (x ∘ h.lift j) = _
  rw [ofBits_posInf_f32]
  exact fold_min_top_eq_iInf _

end Idealize.ShloMosaic.Ideal

end
-- ==== Proof.Ref.lean ====
/-
  The plain program's result, at the ideal values, read as mathematics.

  For two clouds a, b : [4, 8192, 3] the plain program forms the table of entries
  (p, n, m) ↦ ‖a_n‖² + ‖b_m‖² − 2 · (a_n · b_m) one operation at a time: the squared norms summed from the zero
  word over the three coordinates and spread along the other point axis, the dot product contracted over the
  coordinate, the difference. Read at an index by its coordinates this is the entry pr (v12_apply).
  A minimum along one axis from +∞ is, on the extended reals, the infimum over that axis's coordinates: along the
  last axis it gives the nearest point of the second cloud (v13_apply), along the middle axis the nearest point
  of the first (v14_apply). The two tables are then summed, divided by their 32768 entries and added: the
  common end tail of both programs, which is carried whole and never opened (result_eq).
-/
import proofs.«155688_j2044404433131_2_alg».proof.Proof.Dist
import proofs.«155688_j2044404433131_2_alg».proof.Proof.LibMinReduce
import proofs.«155688_j2044404433131_2_alg».proof.Proof.Gen.ReferenceIdeal.Read

noncomputable section

open Idealize.ShloMosaic Idealize.ShloMosaic.TcCoe Idealize.SL.Sem Idealize.ShloMosaic.ValueIdx

namespace Cert.ReferenceIdeal.Chamfer
open Cert.ReferenceIdeal Cert.ReferenceIdeal.Gen Cert.Chamfer

/-! ## Where each operand of the entry (p, n, m) is read -/

/-- The first cloud's squared norm, spread along the last axis, is read at point n: coordinate k of (p, n). -/
theorem idx_normA (p : Fin 4) (n m : Fin 8192) (k : Fin 3) :
    Read.idx_main_v1 (Read.idx_main_v5 (Read.idx_main_v7 (ix3 p n m))) k = ix3 p n k :=
  funext fun a => Fin.ext (by match a with | ⟨0, _⟩ => rfl | ⟨1, _⟩ => rfl | ⟨2, _⟩ => rfl)

/-- The second cloud's squared norm, spread along the middle axis, is read at point m: coordinate k of (p, m). -/
theorem idx_normB (p : Fin 4) (n m : Fin 8192) (k : Fin 3) :
    Read.idx_main_v3 (Read.idx_main_v6 (Read.idx_main_v8 (ix3 p n m))) k = ix3 p m k :=
  funext fun a => Fin.ext (by match a with | ⟨0, _⟩ => rfl | ⟨1, _⟩ => rfl | ⟨2, _⟩ => rfl)

/-- The dot product's left factor at (p, n, m), coordinate k, is a at (p, n, k) … -/
theorem idx_dotA (p : Fin 4) (n m : Fin 8192) (k : Fin 3) :
    Read.lidx_main_v4 (ix3 p n m) k = ix3 p n k :=
  funext fun a => Fin.ext (by match a with | ⟨0, _⟩ => rfl | ⟨1, _⟩ => rfl | ⟨2, _⟩ => rfl)

/-- … and its right factor is b at (p, m, k). -/
theorem idx_dotB (p : Fin 4) (n m : Fin 8192) (k : Fin 3) :
    Read.ridx_main_v4 (ix3 p n m) k = ix3 p m k :=
  funext fun a => Fin.ext (by match a with | ⟨0, _⟩ => rfl | ⟨1, _⟩ => rfl | ⟨2, _⟩ => rfl)

/-! ## The table of entries -/

/-- The plain program's table at (p, n, m) is the entry: the norms' sum minus twice the dot product. -/
theorem v12_apply (x0 x1 : (⟨S4x8192x3, .f32⟩ : BufTy).Contents (Elt Ideal)) (p : Fin 4) (n m : Fin 8192) :
    Read.val_main_v12 (F := Ideal) x0 x1 (ix3 p n m) = pr x0 x1 p n m := by
  rw [Read.val_main_v12_apply, Read.val_main_v9_apply, Read.val_main_v7_apply, Read.val_main_v5_apply,
    Read.val_main_v1_apply, Read.val_main_v8_apply, Read.val_main_v6_apply, Read.val_main_v3_apply,
    Read.val_main_v11_apply, Read.val_main_v10_apply, Read.val_main_cst_1_apply, Read.val_main_v4_apply]
  simp only [Read.val_main_v0_apply, Read.val_main_v2_apply, Read.val_main_cst_apply, Read.val_main_cst_0_apply,
    idx_normA, idx_normB, idx_dotA, idx_dotB,
    Ideal.subf_def, Ideal.addf_def, Ideal.mulf_def, Ideal.ofBits_def]
  unfold Cert.Chamfer.pr Cert.Chamfer.sqn
  rfl

/-! ## The two nearest-neighbour tables -/

/-- Putting coordinate k back on the last axis of (p, n) gives (p, n, k). -/
theorem lift_last (h : S4x8192x8192.Reduces [2] S4x8192) (p : Fin 4) (n k : Fin 8192) :
    h.lift (ix2 p n) k = ix3 p n k := by
  funext c; apply Fin.ext
  fin_cases c <;> rfl

/-- Putting coordinate k back on the middle axis of (p, m) gives (p, k, m). -/
theorem lift_mid (h : S4x8192x8192.Reduces [1] S4x8192) (p : Fin 4) (m k : Fin 8192) :
    h.lift (ix2 p m) k = ix3 p k m := by
  funext c; apply Fin.ext
  fin_cases c <;> rfl

/-- The minimum along the last axis is the infimum of the entries over the second cloud's points. -/
theorem v13_apply (x0 x1 : (⟨S4x8192x3, .f32⟩ : BufTy).Contents (Elt Ideal)) (p : Fin 4) (n : Fin 8192) :
    Read.val_main_v13 (F := Ideal) x0 x1 (ix2 p n) = rowMin (pr x0 x1) p n := by
  have h : S4x8192x8192.Reduces [2] S4x8192 := by decide
  unfold Read.val_main_v13 Read.val_main_cst_2
  rw [Ideal.hostReduce_minimumf_single_iInf (Read.val_main_v12 (F := Ideal) x0 x1)
    reducesTo_S4x8192x8192_S4x8192_d2 h h_S_ (ix2 p n)]
  show (⨅ k : Fin 8192, Read.val_main_v12 (F := Ideal) x0 x1 (h.lift (ix2 p n) k)) = ⨅ m : Fin 8192, pr x0 x1 p n m
  refine iInf_congr fun k => ?_
  rw [lift_last h p n k]
  exact v12_apply x0 x1 p n k

/-- The minimum along the middle axis is the infimum of the entries over the first cloud's points. -/
theorem v14_apply (x0 x1 : (⟨S4x8192x3, .f32⟩ : BufTy).Contents (Elt Ideal)) (p : Fin 4) (m : Fin 8192) :
    Read.val_main_v14 (F := Ideal) x0 x1 (ix2 p m) = colMin (pr x0 x1) p m := by
  have h : S4x8192x8192.Reduces [1] S4x8192 := by decide
  unfold Read.val_main_v14 Read.val_main_cst_3
  rw [Ideal.hostReduce_minimumf_single_iInf (Read.val_main_v12 (F := Ideal) x0 x1)
    reducesTo_S4x8192x8192_S4x8192_d1 h h_S_ (ix2 p m)]
  show (⨅ k : Fin 8192, Read.val_main_v12 (F := Ideal) x0 x1 (h.lift (ix2 p m) k)) = ⨅ n : Fin 8192, pr x0 x1 p n m
  refine iInf_congr fun k => ?_
  rw [lift_mid h p m k]
  exact v12_apply x0 x1 p k m

/-! ## The result -/

/-- The plain program's result is the common end applied to the two nearest-neighbour tables. -/
theorem result_eq (x0 x1 : (⟨S4x8192x3, .f32⟩ : BufTy).Contents (Elt Ideal)) :
    Read.val_main_v19 (F := Ideal) x0 x1
      = Cert.Chamfer.tail reducesTo_S4x8192_S_d0_1 h_S_ (fun j => rowMin (pr x0 x1) (j 0) (j 1)) (fun j => colMin (pr x0 x1) (j 0) (j 1)) := by
  have e13 : Read.val_main_v13 (F := Ideal) x0 x1 = fun j => rowMin (pr x0 x1) (j 0) (j 1) := funext fun j => by
    obtain ⟨p, n, rfl⟩ : ∃ (p : Fin 4) (n : Fin 8192), j = ix2 p n := ⟨j 0, j 1, eq_ix2 j⟩
    exact v13_apply x0 x1 p n
  have e14 : Read.val_main_v14 (F := Ideal) x0 x1 = fun j => colMin (pr x0 x1) (j 0) (j 1) := funext fun j => by
    obtain ⟨p, m, rfl⟩ : ∃ (p : Fin 4) (m : Fin 8192), j = ix2 p m := ⟨j 0, j 1, eq_ix2 j⟩
    exact v14_apply x0 x1 p m
  unfold Read.val_main_v19 Read.val_main_v16 Read.val_main_v18 Read.val_main_v15 Read.val_main_v17
    Read.val_main_cst_4 Read.val_main_cst_5 Read.val_main_cst_6 Read.val_main_cst_7 Cert.Chamfer.tail
  rw [e13, e14]

end Cert.ReferenceIdeal.Chamfer
end
-- ==== Proof.Finite.lean ====
/-
  From "every entry's absolute value is below +∞" to "every entry is a real number".

  The precondition of the claim says, of each of the two clouds, that |x| < +∞ at every index: an
  all-quantifier written as a conjunction (a reduction by "and" from 1 over all three axes) of the
  entrywise comparisons, the two conjunctions joined by one more "and". On the extended reals |x| is
  max x (−x), which is +∞ at both infinities and |r| at a real r; so the comparison being true at an
  index leaves only the reals for the entry there.
-/
import proofs.«155688_j2044404433131_2_alg».proof.Proof.Dist
import proofs.«155688_j2044404433131_2_alg».proof.Pre_finite_inputs
import Idealize.ShloMosaic.Lib.ReduceAll
import Idealize.ShloMosaic.Lib.ValueIdx

noncomputable section

open Idealize.ShloMosaic Idealize.ShloMosaic.ValueIdx

namespace Cert.Chamfer

/-- The scalar shape has one index. -/
instance subsingleton_scalarIdx : Subsingleton Cert.Pre_finite_inputs.S_.Idx :=
  ⟨fun a b => funext fun d => d.elim0⟩

/-- A strict comparison that answers 1 holds. -/
theorem lt_of_cmp_olt (a b : EReal) (h : Ideal.cmp .olt a b = 1#1) : a < b := by
  by_contra hn
  have e : Ideal.cmp .olt a b = 0#1 := by
    show BitVec.ofBool (decide (a < b)) = 0#1
    rw [decide_eq_false hn]; rfl
  rw [e] at h
  exact absurd h (by decide)

/-- An extended real whose absolute value max x (−x) is below +∞ is a real: at either infinity the maximum is +∞. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  have hlt := lt_of_cmp_olt _ _ h
  induction x using EReal.rec with
  | bot => simp at hlt
  | coe r => exact ⟨r, rfl⟩
  | top => simp at hlt

/-- One cloud: the conjunction over all indices of |x| < +∞ being 1 makes every entry a real. -/
theorem finite_of_all [Cert.Pre_finite_inputs.Facts] (x : FVec Ideal Cert.Pre_finite_inputs.S4x8192x3 .f32)
    (e : Host.reduce IntOp.andi
        (cmpf .olt (Host.absf x)
          (broadcastInDim Cert.Pre_finite_inputs.S4x8192x3 ![] Cert.Pre_finite_inputs.Facts.bcast_S_S4x8192x3
            (constant (F := Ideal) Cert.Pre_finite_inputs.S_ .f32 0x7F800000#32)))
        (constantI Cert.Pre_finite_inputs.S_ 1 1#1)
        Cert.Pre_finite_inputs.Facts.reducesTo_S4x8192x3_S_d0_1_2 Cert.Pre_finite_inputs.Facts.h_S_ ix0 = 1#1) :
    Finite x := by
  intro i
  have hi := Host.reduce_andi_all _ _ _ _ _ e i
  exact real_of_abs_lt_top (x i) hi

/-- The precondition makes every entry of both clouds a real number. -/
theorem finite_of_pre [Cert.Pre_finite_inputs.Facts] (x0 x1 : FVec Ideal Cert.Pre_finite_inputs.S4x8192x3 .f32)
    (h : Cert.Pre_finite_inputs.fn (F := Ideal) x0 x1 = fun _ => 1#1) : Cert.Chamfer.Finite x0 ∧ Cert.Chamfer.Finite x1 := by
  have h0 := congrFun h ValueIdx.ix0
  dsimp only [Cert.Pre_finite_inputs.fn] at h0
  obtain ⟨ha, hb⟩ := IntOp.andi_eq_one.1 h0
  exact ⟨finite_of_all x0 ha, finite_of_all x1 hb⟩

end Cert.Chamfer

end
-- ==== Proof.AccPieces.lean ====
/-
  What one grid point's body leaves in the carried scratch, and in the row-minimum output, read at an index.

  The scratch is a [4, 512, 128] table of running minima, one lane per residue of the second cloud's point
  index modulo 128. At a point the body forms the (512 × 512) tile of squared distances
  ‖a_r‖² + ‖b_q‖² + Σ_d a_{r,d} · (−2 b_{q,d}) from its four input blocks, and replaces each lane (p, r, l) by
  its minimum with the tile entries (p, r, l), (p, r, 128 + l), (p, r, 256 + l), (p, r, 384 + l), in that order.
  At the first tile of a row of tiles the scratch is first set to +∞; at the last tile the minimum over the
  128 lanes is also written out as the column entry (p, r).

  The proof reads each case's stores back. Every store covers the whole scratch and every later load reads the
  whole scratch, so a load after a store is that store's value; a load of one column (row) of an input block
  reads the block at that column (row). What is left is the value of each arithmetic step at an index: a
  broadcast reads its operand at the kept coordinates, a slice at the shifted lane, a minimum along the lane axis
  from +∞ is the infimum over the lanes.
-/
import proofs.«155688_j2044404433131_2_alg».proof.Proof.Dist
import proofs.«155688_j2044404433131_2_alg».proof.Proof.LibMinReduce
import proofs.«155688_j2044404433131_2_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChamferAcc
open Cert.KernelIdeal Cert.KernelIdeal.Gen Cert.Chamfer

/-- The three zero offsets, however spelt, are the zero function. -/
theorem hz : (![0, 0, 0] : Fin 3 → Nat) = fun _ => 0 := funext fun a => by fin_cases a <;> rfl

/-! ## Reading the layout operations at an index -/

/-- A column [4,512,1] spread over the last axis reads, at (p, r, q), the column's entry (p, r). -/
theorem bcastCol_apply {α : Type} (x : S4x512x1.Idx → α) (h : S4x512x1.Broadcasts S4x512x512)
    (p : Fin 4) (r q : Fin 512) : broadcastTo S4x512x512 x h (ix3 p r q) = x (ix3 p r 0) :=
  broadcastTo_apply x h (ix3 p r q) (ix3 p r 0) fun a => by
    match a with
    | ⟨0, _⟩ => rfl
    | ⟨1, _⟩ => rfl
    | ⟨2, _⟩ => rfl

/-- A row [4,1,512] spread over the middle axis reads, at (p, r, q), the row's entry (p, q). -/
theorem bcastRow_apply {α : Type} (x : S4x1x512.Idx → α) (h : S4x1x512.Broadcasts S4x512x512)
    (p : Fin 4) (r q : Fin 512) : broadcastTo S4x512x512 x h (ix3 p r q) = x (ix3 p 0 q) :=
  broadcastTo_apply x h (ix3 p r q) (ix3 p 0 q) fun a => by
    match a with
    | ⟨0, _⟩ => rfl
    | ⟨1, _⟩ => rfl
    | ⟨2, _⟩ => rfl

/-- The block of 128 lanes at lane offset `k` of a [4,512,512] tile reads, at (p, r, l), the tile's entry (p, r, k + l). -/
theorem chunk_apply {α : Type} (P : S4x512x512.Idx → α) (k : Nat) (h : S4x512x512.Slices ![0, 0, k] S4x512x128)
    (p : Fin 4) (r : Fin 512) (l : Fin 128) (q : Fin 512) (hq : q.val = k + l.val) :
    extractStridedSlice S4x512x128 ![0, 0, k] P h (ix3 p r l) = P (ix3 p r q) := by
  unfold extractStridedSlice
  refine congrArg P (funext fun a => Fin.ext ?_)
  match a with
  | ⟨0, _⟩ => exact Nat.zero_add _
  | ⟨1, _⟩ => exact Nat.zero_add _
  | ⟨2, _⟩ => exact hq.symm

/-- Column `d` of a block of points, loaded as a [4,512,1] rectangle, reads at (p, r, 0) the block's entry (p, r, d). -/
theorem ldCol_apply {Val : EltTy → Type} {e : EltTy} (x : S4x512x3.Idx → Val e) (k : Nat) (inb : ∀ a, (![0, 0, k] : Fin 3 → Nat) a + S4x512x1.size a ≤ S4x512x3.size a)
    (p : Fin 4) (r : Fin 512) (d : Fin 3) (hd : d.val = k) :
    View.ld (Val := Val) x (Rect.unit (s := S4x512x3) ![0, 0, k] S4x512x1.size inb) (ix3 p r 0) = x (ix3 p r d) := by
  show x _ = x _
  refine congrArg x (funext fun a => Fin.ext ?_)
  match a with
  | ⟨0, _⟩ => show 0 + 1 * p.val = p.val; omega
  | ⟨1, _⟩ => show 0 + 1 * r.val = r.val; omega
  | ⟨2, _⟩ => show k + 1 * 0 = d.val; omega

/-- Row `d` of a coordinate-major block, loaded as a [4,1,512] rectangle, reads at (p, 0, q) the block's entry (p, d, q). -/
theorem ldRow_apply {Val : EltTy → Type} {e : EltTy} (x : S4x3x512.Idx → Val e) (k : Nat) (inb : ∀ a, (![0, k, 0] : Fin 3 → Nat) a + S4x1x512.size a ≤ S4x3x512.size a)
    (p : Fin 4) (q : Fin 512) (d : Fin 3) (hd : d.val = k) :
    View.ld (Val := Val) x (Rect.unit (s := S4x3x512) ![0, k, 0] S4x1x512.size inb) (ix3 p 0 q) = x (ix3 p d q) := by
  show x _ = x _
  refine congrArg x (funext fun a => Fin.ext ?_)
  match a with
  | ⟨0, _⟩ => show 0 + 1 * p.val = p.val; omega
  | ⟨1, _⟩ => show k + 1 * 0 = d.val; omega
  | ⟨2, _⟩ => show 0 + 1 * q.val = q.val; omega

/-! ## The payloads at an index -/

/-- The tile the body forms from its eight loaded slices: the two norms added, plus the three products added left to right. -/
theorem pay7_apply (v3 : Vec Ideal S4x512x1 .f32) (v4 : Vec Ideal S4x1x512 .f32) (v9 : Vec Ideal S4x512x1 .f32)
    (v10 : Vec Ideal S4x1x512 .f32) (v16 : Vec Ideal S4x512x1 .f32) (v17 : Vec Ideal S4x1x512 .f32)
    (v23 : Vec Ideal S4x512x1 .f32) (v25 : Vec Ideal S4x1x512 .f32) (p : Fin 4) (r q : Fin 512) :
    k0_pay7 (F := Ideal) v3 v4 v9 v10 v16 v17 v23 v25 (ix3 p r q)
      = (v23 (ix3 p r 0) + v25 (ix3 p 0 q))
        + ((v3 (ix3 p r 0) * v4 (ix3 p 0 q) + v9 (ix3 p r 0) * v10 (ix3 p 0 q)) + v16 (ix3 p r 0) * v17 (ix3 p 0 q)) := by
  unfold k0_pay7
  simp only [shapeCast_self, addf_apply, mulf_apply, bcastCol_apply, bcastRow_apply]

/-- One fold step: the accumulator lane against the tile's lane at offset 0. -/
theorem pay8_apply (P : FVec Ideal S4x512x512 .f32) (acc : Vec Ideal S4x512x128 .f32) (p : Fin 4) (r : Fin 512) (l : Fin 128) :
    k0_pay8 (F := Ideal) P acc (ix3 p r l) = min (acc (ix3 p r l)) (P (ix3 p r ⟨l.val, by omega⟩)) := by
  unfold k0_pay8
  rw [shapeCast_self]
  exact congrArg (min (acc (ix3 p r l))) (chunk_apply P 0 _ p r l ⟨l.val, by omega⟩ (Nat.zero_add _).symm)

/-- One fold step: the accumulator lane against the tile's lane at offset 128. -/
theorem pay9_apply (P : FVec Ideal S4x512x512 .f32) (acc : Vec Ideal S4x512x128 .f32) (p : Fin 4) (r : Fin 512) (l : Fin 128) :
    k0_pay9 (F := Ideal) P acc (ix3 p r l) = min (acc (ix3 p r l)) (P (ix3 p r ⟨128 + l.val, by omega⟩)) := by
  unfold k0_pay9
  rw [shapeCast_self]
  exact congrArg (min (acc (ix3 p r l))) (chunk_apply P 128 _ p r l ⟨128 + l.val, by omega⟩ rfl)

/-- One fold step: the accumulator lane against the tile's lane at offset 256. -/
theorem pay10_apply (P : FVec Ideal S4x512x512 .f32) (acc : Vec Ideal S4x512x128 .f32) (p : Fin 4) (r : Fin 512) (l : Fin 128) :
    k0_pay10 (F := Ideal) P acc (ix3 p r l) = min (acc (ix3 p r l)) (P (ix3 p r ⟨256 + l.val, by omega⟩)) := by
  unfold k0_pay10
  rw [shapeCast_self]
  exact congrArg (min (acc (ix3 p r l))) (chunk_apply P 256 _ p r l ⟨256 + l.val, by omega⟩ rfl)

/-- One fold step: the accumulator lane against the tile's lane at offset 384. -/
theorem pay11_apply (P : FVec Ideal S4x512x512 .f32) (acc : Vec Ideal S4x512x128 .f32) (p : Fin 4) (r : Fin 512) (l : Fin 128) :
    k0_pay11 (F := Ideal) P acc (ix3 p r l) = min (acc (ix3 p r l)) (P (ix3 p r ⟨384 + l.val, by omega⟩)) := by
  unfold k0_pay11
  rw [shapeCast_self]
  exact congrArg (min (acc (ix3 p r l))) (chunk_apply P 384 _ p r l ⟨384 + l.val, by omega⟩ rfl)

/-- The reset value: every lane of the scratch is +∞. -/
theorem pay6_apply (y : S4x512x128.Idx) : k0_pay6 (F := Ideal) y = (⊤ : EReal) := by
  unfold k0_pay6
  rw [shapeCast_self]
  exact Ideal.ofBits_posInf_f32

/-- The dropped lane put back: over the reduced index (p, r), lane `k` is (p, r, k). -/
theorem lift_ix3 (h : S4x512x128.Reduces [2] S4x512) (p : Fin 4) (r : Fin 512) (k : Fin (S4x512x128.size 2)) :
    h.lift (ix2 p r) k = ix3 p r (⟨k.val, k.isLt⟩ : Fin 128) := by
  funext c; apply Fin.ext
  fin_cases c <;> rfl

/-- The last point's reduction: the minimum over the scratch's 128 lanes, kept as a column. -/
theorem pay5_apply (v79 : Vec Ideal S4x512x128 .f32) (p : Fin 4) (r : Fin 512) :
    k0_pay5 (F := Ideal) v79 (ix3 p r (0 : Fin 1)) = ⨅ l : Fin 128, v79 (ix3 p r l) := by
  unfold k0_pay5
  refine (shapeCast_apply _ shapeCasts_S4x512_S4x512x1 (ix3 p r (0 : Fin 1)) (ix2 p r) ?_).trans ?_
  · have e2 := Shape.rowMajor_val_two (d := ![4, 512]) (ix2 p r)
    have e3 := Shape.rowMajor_val_three (d := ![4, 512, 1]) (ix3 p r (0 : Fin 1))
    refine e2.trans (Eq.trans ?_ e3.symm)
    show p.val * 512 + r.val = (p.val * 512 + r.val) * 1 + 0
    omega
  · refine (Ideal.multiReduction_minimumf_single_iInf v79 reduces_S4x512x128_S4x512 (.inl rfl) rfl (ix2 p r)).trans ?_
    exact iInf_congr fun k => congrArg v79 (lift_ix3 _ p r k)

/-! ## The body's tile and its four folds -/

/-- The tile the body forms from the three loaded columns of the points block, the three loaded rows of the scaled block
    and the two norm blocks is `tile`. -/
theorem tile_apply (x0 : Vec Ideal S4x512x3 .f32) (x1 : Vec Ideal S4x512x1 .f32) (x2 : Vec Ideal S4x3x512 .f32)
    (x3 : Vec Ideal S4x1x512 .f32)
    (i0 : ∀ a, (![0, 0, 0] : Fin 3 → Nat) a + S4x512x1.size a ≤ S4x512x3.size a)
    (i1 : ∀ a, (![0, 0, 1] : Fin 3 → Nat) a + S4x512x1.size a ≤ S4x512x3.size a)
    (i2 : ∀ a, (![0, 0, 2] : Fin 3 → Nat) a + S4x512x1.size a ≤ S4x512x3.size a)
    (j0 : ∀ a, (![0, 0, 0] : Fin 3 → Nat) a + S4x1x512.size a ≤ S4x3x512.size a)
    (j1 : ∀ a, (![0, 1, 0] : Fin 3 → Nat) a + S4x1x512.size a ≤ S4x3x512.size a)
    (j2 : ∀ a, (![0, 2, 0] : Fin 3 → Nat) a + S4x1x512.size a ≤ S4x3x512.size a)
    (p : Fin 4) (r q : Fin 512) :
    k0_pay7 (F := Ideal)
        (View.ld x0 (Rect.unit (s := S4x512x3) ![0, 0, 0] S4x512x1.size i0))
        (View.ld x2 (Rect.unit (s := S4x3x512) ![0, 0, 0] S4x1x512.size j0))
        (View.ld x0 (Rect.unit (s := S4x512x3) ![0, 0, 1] S4x512x1.size i1))
        (View.ld x2 (Rect.unit (s := S4x3x512) ![0, 1, 0] S4x1x512.size j1))
        (View.ld x0 (Rect.unit (s := S4x512x3) ![0, 0, 2] S4x512x1.size i2))
        (View.ld x2 (Rect.unit (s := S4x3x512) ![0, 2, 0] S4x1x512.size j2)) x1 x3 (ix3 p r q)
      = tile x0 x1 x2 x3 p r q := by
  rw [pay7_apply, ldCol_apply x0 0 i0 p r 0 rfl, ldCol_apply x0 1 i1 p r 1 rfl, ldCol_apply x0 2 i2 p r 2 rfl,
    ldRow_apply x2 0 j0 p q 0 rfl, ldRow_apply x2 1 j1 p q 1 rfl, ldRow_apply x2 2 j2 p q 2 rfl]
  rfl

/-- The four fold steps in a row over a tile whose row (p, r) is `T`: the lane's running minimum against its lane of the
    row's four chunks of 128. -/
theorem folds_apply (P : FVec Ideal S4x512x512 .f32) (acc : Vec Ideal S4x512x128 .f32) (T : Fin 512 → EReal)
    (p : Fin 4) (r : Fin 512) (hP : ∀ q, P (ix3 p r q) = T q) (l : Fin 128) :
    k0_pay11 (F := Ideal) P (k0_pay10 P (k0_pay9 P (k0_pay8 P acc))) (ix3 p r l) = fold4 (acc (ix3 p r l)) T l := by
  rw [pay11_apply, pay10_apply, pay9_apply, pay8_apply, hP, hP, hP, hP]
  rfl

/-! ## What each case leaves -/

/-- At a row's first tile the scratch is reset to +∞ and folded with the tile: each lane ends at the minimum of its four chunk entries. -/
theorem sout_A_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : cond0_0 i) (hc1 : ¬cond0_1 i) (x0 : Vec Ideal S4x512x3 .f32) (x1 : Vec Ideal S4x512x1 .f32) (x2 : Vec Ideal S4x3x512 .f32) (x3 : Vec Ideal S4x1x512 .f32) (p : Fin 4) (r : Fin 512) (l : Fin 128) :
    sout0_A_0 (F := Ideal) c i arg2 harg2 arg3 harg3 arg4 harg4 arg5 harg5 arg6 harg6 arg7 harg7 arg8 harg8 hc0 hc1 x0 x1 x2 x3 (ix3 p r l) = fold4 ⊤ (tile x0 x1 x2 x3 p r) l := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  rw [View.canon_cons_unit_zero (S := S4x512x128) hz]
  sl_unfold_words
  simp only [View.readCov_cons_toLoadRect, View.readAt_eq_ld, harg2.read_unread, harg3.read_unread, harg4.read_unread,
    harg5.read_unread, harg8.read_unread, View.ld_unit_zero (S := S4x512x128) hz, View.ld_unit_zero (S := S4x512x1) hz,
    View.ld_unit_zero (S := S4x1x512) hz]
  refine (folds_apply _ _ _ p r (fun q => tile_apply x0 x1 x2 x3 _ _ _ _ _ _ p r q) l).trans ?_
  rw [pay6_apply]

/-- At a tile in the middle of a row the scratch the point before left is folded with the tile. -/
theorem sout_B_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : ¬cond0_0 i) (hc1 : ¬cond0_1 i) (x0 : Vec Ideal S4x512x3 .f32) (x1 : Vec Ideal S4x512x1 .f32) (x2 : Vec Ideal S4x3x512 .f32) (x3 : Vec Ideal S4x1x512 .f32) (xs0 : Vec Ideal S4x512x128 .f32) (p : Fin 4) (r : Fin 512) (l : Fin 128) :
    sout0_B_0 (F := Ideal) c i arg2 harg2 arg3 harg3 arg4 harg4 arg5 harg5 arg6 harg6 arg7 harg7 arg8 harg8 hc0 hc1 x0 x1 x2 x3 xs0 (ix3 p r l) = fold4 (xs0 (ix3 p r l)) (tile x0 x1 x2 x3 p r) l := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  rw [View.canon_cons_unit_zero (S := S4x512x128) hz]
  sl_unfold_words
  simp only [View.readCov_cons_toLoadRect, View.readAt_eq_ld, harg2.read_unread, harg3.read_unread, harg4.read_unread,
    harg5.read_unread, harg8.read_unread, View.ld_unit_zero (S := S4x512x128) hz, View.ld_unit_zero (S := S4x512x1) hz,
    View.ld_unit_zero (S := S4x1x512) hz]
  exact folds_apply _ _ _ p r (fun q => tile_apply x0 x1 x2 x3 _ _ _ _ _ _ p r q) l

/-- At a row's last tile the scratch is folded with the tile in the same way; -/
theorem sout_C_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : ¬cond0_0 i) (hc1 : cond0_1 i) (x0 : Vec Ideal S4x512x3 .f32) (x1 : Vec Ideal S4x512x1 .f32) (x2 : Vec Ideal S4x3x512 .f32) (x3 : Vec Ideal S4x1x512 .f32) (xs0 : Vec Ideal S4x512x128 .f32) (p : Fin 4) (r : Fin 512) (l : Fin 128) :
    sout0_C_0 (F := Ideal) c i arg2 harg2 arg3 harg3 arg4 harg4 arg5 harg5 arg6 harg6 arg7 harg7 arg8 harg8 hc0 hc1 x0 x1 x2 x3 xs0 (ix3 p r l) = fold4 (xs0 (ix3 p r l)) (tile x0 x1 x2 x3 p r) l := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_cons_unit_zero (S := S4x512x128) hz]
  simp only [View.readCov_cons_toLoadRect, View.readAt_eq_ld, harg2.read_unread, harg3.read_unread, harg4.read_unread,
    harg5.read_unread, harg8.read_unread, View.ld_unit_zero (S := S4x512x128) hz, View.ld_unit_zero (S := S4x512x1) hz,
    View.ld_unit_zero (S := S4x1x512) hz]
  exact folds_apply _ _ _ p r (fun q => tile_apply x0 x1 x2 x3 _ _ _ _ _ _ p r q) l

/-- and the row's output column is then the minimum of the folded scratch over its 128 lanes. -/
theorem out4_C_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : ¬cond0_0 i) (hc1 : cond0_1 i) (x0 : Vec Ideal S4x512x3 .f32) (x1 : Vec Ideal S4x512x1 .f32) (x2 : Vec Ideal S4x3x512 .f32) (x3 : Vec Ideal S4x1x512 .f32) (xs0 : Vec Ideal S4x512x128 .f32) (p : Fin 4) (r : Fin 512) :
    out0_C_4 (F := Ideal) c i arg2 harg2 arg3 harg3 arg4 harg4 arg5 harg5 arg6 harg6 arg7 harg7 arg8 harg8 hc0 hc1 x0 x1 x2 x3 xs0 (ix3 p r (0 : Fin 1)) = ⨅ l : Fin 128, fold4 (xs0 (ix3 p r l)) (tile x0 x1 x2 x3 p r) l := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  rw [View.canon_unit_zero (S := S4x512x1) hz]
  sl_unfold_words
  simp only [View.readCov_cons_toLoadRect, View.readAt_eq_ld, harg2.read_unread, harg3.read_unread, harg4.read_unread,
    harg5.read_unread, harg8.read_unread, View.ld_unit_zero (S := S4x512x128) hz, View.ld_unit_zero (S := S4x512x1) hz,
    View.ld_unit_zero (S := S4x1x512) hz]
  rw [pay5_apply]
  exact iInf_congr fun l => folds_apply _ _ _ p r (fun q => tile_apply x0 x1 x2 x3 _ _ _ _ _ _ p r q) l

end Cert.KernelIdeal.ChamferAcc
end
-- ==== Proof.ColPieces.lean ====
/-
  What one grid point's body leaves in the column-minima output: at batch `p` and column `q` of the tile, the
  infimum over the tile's 512 rows of the tile's entries.

  The body forms the tile P : [4, 512, 512] — entry (p, r, q) is ‖a_r‖² + ‖b_q‖² plus the three products
  a_{r,d} · (−2 b_{q,d}) added left to right — from eight loaded slices: the three coordinate columns of the
  first cloud's block, the three coordinate rows of the scaled second cloud's block, and the two norm blocks.
  It takes the minimum along the row axis, a [4, 512] table, and stores the table's four rows one at a time
  into the [1, 4, 512] output block. Read back at (0, p, q), the block holds row `p` of the table at `q`:
  the infimum over `r` of P (p, r, q). The same holds in each of the three control cases, which differ only in
  what they do to the running row minima and never in these four stores.
-/
import proofs.«155688_j2044404433131_2_alg».proof.Proof.Dist
import proofs.«155688_j2044404433131_2_alg».proof.Proof.LibMinReduce
import proofs.«155688_j2044404433131_2_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChamferCol
open Cert.KernelIdeal Cert.KernelIdeal.Gen Cert.Chamfer

/-! ## Two broadcasts along a unit axis, read at an index -/

/-- A column `[a, b, 1]` spread along the last axis reads, at `(p, r, q)`, its entry `(p, r, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (r : Fin b) (q : Fin c) :
    broadcastTo ⟨3, ![a, b, c]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- A row `[a, 1, c]` spread along the middle axis reads, at `(p, r, q)`, its entry `(p, 0, q)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (r : Fin b) (q : Fin c) :
    broadcastTo ⟨3, ![a, b, c]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-! ## The tile's entry -/

/-- The entry `(p, r, q)` of the tile the body forms from eight loaded slices: the two norms added, plus the three
    products of a column of the first cloud's block with a row of the scaled second, added left to right. -/
theorem pay7_apply (v3 : Vec Ideal S4x512x1 .f32) (v4 : Vec Ideal S4x1x512 .f32) (v9 : Vec Ideal S4x512x1 .f32)
    (v10 : Vec Ideal S4x1x512 .f32) (v16 : Vec Ideal S4x512x1 .f32) (v17 : Vec Ideal S4x1x512 .f32)
    (v23 : Vec Ideal S4x512x1 .f32) (v25 : Vec Ideal S4x1x512 .f32) (p : Fin 4) (r q : Fin 512) :
    k0_pay7 (F := Ideal) v3 v4 v9 v10 v16 v17 v23 v25 (ix3 p r q)
      = (v23 (ix3 p r (0 : Fin 1)) + v25 (ix3 p (0 : Fin 1) q))
        + ((v3 (ix3 p r (0 : Fin 1)) * v4 (ix3 p (0 : Fin 1) q) + v9 (ix3 p r (0 : Fin 1)) * v10 (ix3 p (0 : Fin 1) q))
          + v16 (ix3 p r (0 : Fin 1)) * v17 (ix3 p (0 : Fin 1) q)) := by
  unfold k0_pay7
  simp only [shapeCast_self, addf_apply, mulf_apply]
  rw [broadcastTo_ab1_abc_apply v23 _ p r q, broadcastTo_a1c_abc_apply v25 _ p r q,
    broadcastTo_ab1_abc_apply v3 _ p r q, broadcastTo_a1c_abc_apply v4 _ p r q,
    broadcastTo_ab1_abc_apply v9 _ p r q, broadcastTo_a1c_abc_apply v10 _ p r q,
    broadcastTo_ab1_abc_apply v16 _ p r q, broadcastTo_a1c_abc_apply v17 _ p r q]

/-! ## The minimum over the tile's rows -/

/-- The reduced index `(p, q)` with row `r` put back on axis 1 is `(p, r, q)`. -/
theorem lift_ix2 (h : S4x512x512.Reduces [1] S4x512) (p : Fin 4) (q : Fin 512) (k : Fin (S4x512x512.size 1)) :
    h.lift (ix2 p q) k = ix3 p (⟨k.val, k.isLt⟩ : Fin 512) q := by
  funext c; apply Fin.ext
  fin_cases c <;> rfl

/-- The minimum along the tile's rows, at `(p, q)`, is the infimum of column `q` of batch `p`. -/
theorem pay12_apply (P : FVec Ideal S4x512x512 .f32) (p : Fin 4) (q : Fin 512) :
    k0_pay12 (F := Ideal) P (ix2 p q) = ⨅ r : Fin 512, P (ix3 p r q) := by
  unfold k0_pay12
  refine (Ideal.multiReduction_minimumf_single_iInf P reduces_S4x512x512_S4x512 (.inl rfl) rfl (ix2 p q)).trans ?_
  exact iInf_congr fun k => congrArg P (lift_ix2 reduces_S4x512x512_S4x512 p q k)

/-! ## One row of the table, cast to a `[1, 1, 512]` block -/

/-- A vector of `n` entries cast to `[1, 1, n]` reads, at `(u, u', t)`, entry `t`. -/
theorem shapeCast_a_11a_apply {α : Type} {n : ℕ} (x : (⟨1, ![n]⟩ : Shape).Idx → α)
    (h : (⟨1, ![n]⟩ : Shape).ShapeCasts ⟨3, ![1, 1, n]⟩) (u u' : Fin 1) (t : Fin n) :
    shapeCast ⟨3, ![1, 1, n]⟩ x h (ix3 u u' t) = x (ix1 t) :=
  shapeCast_apply x h _ _ (by
    have hu : u.val = 0 := by omega
    have hu' : u'.val = 0 := by omega
    rw [Shape.rowMajor_val_three, Shape.rowMajor_val_one]
    show t.val = (u.val * 1 + u'.val) * n + t.val
    rw [hu, hu']
    simp)

/-- Row `o` of a `[4, 512]` table, cut out, flattened and cast to a `[1, 1, 512]` block, reads at `(u, u', t)` the
    table's entry `(k, t)`, `k` the row's number. -/
theorem rowBlock_apply (o : ℕ) (X : FVec Ideal S4x512 .f32) (hs : S4x512.Slices ![o, 0] S1x512)
    (hc : S1x512.ShapeCasts S512) (hc' : S512.ShapeCasts S1x1x512) (k : Fin 4) (hk : k.val = o) (u u' : Fin 1) (t : Fin 512) :
    shapeCast S1x1x512 (shapeCast S512 (extractStridedSlice S1x512 ![o, 0] X hs) hc) hc' (ix3 u u' t) = X (ix2 k t) := by
  refine (shapeCast_a_11a_apply _ hc' u u' t).trans ?_
  refine (shapeCast_apply _ hc (ix1 t) (ix2 (0 : Fin 1) t) (by
    rw [Shape.rowMajor_val_two, Shape.rowMajor_val_one]
    show 0 * 512 + t.val = t.val
    rw [Nat.zero_mul, Nat.zero_add])).trans ?_
  refine extractStridedSlice_apply _ X hs (ix2 (0 : Fin 1) t) (ix2 k t) fun ax => ?_
  match ax with
  | ⟨0, _⟩ => show k.val = o + 0; rw [hk]; rfl
  | ⟨1, _⟩ => exact (Nat.zero_add _).symm

theorem pay1_apply (P : FVec Ideal S4x512x512 .f32) (u u' : Fin 1) (t : Fin 512) :
    k0_pay1 (F := Ideal) (k0_pay13 P) (ix3 u u' t) = k0_pay12 P (ix2 (0 : Fin 4) t) := by
  unfold k0_pay1 k0_pay13
  exact rowBlock_apply 0 (k0_pay12 P) _ _ _ (0 : Fin 4) rfl u u' t

theorem pay2_apply (T : FVec Ideal S4x512 .f32) (u u' : Fin 1) (t : Fin 512) :
    k0_pay2 (F := Ideal) T (ix3 u u' t) = T (ix2 (1 : Fin 4) t) := by
  unfold k0_pay2
  exact rowBlock_apply 1 T _ _ _ (1 : Fin 4) rfl u u' t

theorem pay3_apply (T : FVec Ideal S4x512 .f32) (u u' : Fin 1) (t : Fin 512) :
    k0_pay3 (F := Ideal) T (ix3 u u' t) = T (ix2 (2 : Fin 4) t) := by
  unfold k0_pay3
  exact rowBlock_apply 2 T _ _ _ (2 : Fin 4) rfl u u' t

theorem pay4_apply (T : FVec Ideal S4x512 .f32) (u u' : Fin 1) (t : Fin 512) :
    k0_pay4 (F := Ideal) T (ix3 u u' t) = T (ix2 (3 : Fin 4) t) := by
  unfold k0_pay4
  exact rowBlock_apply 3 T _ _ _ (3 : Fin 4) rfl u u' t

/-! ## The four stored rows are one function of the block's index -/

/-- The block's contents as one function of its index: the table at the index's last two coordinates. -/
def blockOf (T : S4x512.Idx → EReal) (y : S1x4x512.Idx) : EReal := T (ix2 (y 1) (y 2))

/-- A piece stored at row `k` whose payload reads the table's row `k` is a block of `blockOf T`. -/
theorem piece_blockOf (T : S4x512.Idx → EReal) (k : Fin 4) (kn : ℕ) (hkn : k.val = kn)
    (inb : ∀ a, (![0, kn, 0] : Fin 3 → ℕ) a + (![1, 1, 512] : Fin 3 → ℕ) a ≤ S1x4x512.size a)
    (w : S1x1x512.Idx → EReal) (hw : ∀ (u u' : Fin 1) (t : Fin 512), w (ix3 u u' t) = T (ix2 k t))
    (x : (Rect.unit (s := S1x4x512) ![0, kn, 0] ![1, 1, 512] inb).shape.Idx) :
    w x = blockOf T ((Rect.unit (s := S1x4x512) ![0, kn, 0] ![1, 1, 512] inb).emb x) := by
  obtain ⟨u, u', t, rfl⟩ : ∃ (u u' : Fin 1) (t : Fin 512), x = ix3 u u' t := ⟨x 0, x 1, x 2, eq_ix3 x⟩
  rw [hw u u' t]
  unfold blockOf
  refine congrArg T ?_
  have hu' : u'.val = 0 := by omega
  funext c; apply Fin.ext
  fin_cases c
  · show k.val = kn + 1 * u'.val
    omega
  · show t.val = 0 + 1 * t.val
    omega

theorem blockOf_ix3 (T : S4x512.Idx → EReal) (u : Fin 1) (p : Fin 4) (q : Fin 512) :
    blockOf T (ix3 u p q) = T (ix2 p q) := rfl

/-- The canon of the four row stores, newest first, at `(0, p, q)`: row `p` of the table of minima at `q`. -/
theorem canon_rows (P : FVec Ideal S4x512x512 .f32)
    (inb0 : ∀ a, (![0, 0, 0] : Fin 3 → ℕ) a + (![1, 1, 512] : Fin 3 → ℕ) a ≤ S1x4x512.size a)
    (inb1 : ∀ a, (![0, 1, 0] : Fin 3 → ℕ) a + (![1, 1, 512] : Fin 3 → ℕ) a ≤ S1x4x512.size a)
    (inb2 : ∀ a, (![0, 2, 0] : Fin 3 → ℕ) a + (![1, 1, 512] : Fin 3 → ℕ) a ≤ S1x4x512.size a)
    (inb3 : ∀ a, (![0, 3, 0] : Fin 3 → ℕ) a + (![1, 1, 512] : Fin 3 → ℕ) a ≤ S1x4x512.size a)
    (p : Fin 4) (q : Fin 512) :
    View.canon (Val := Elt Ideal) (s := S1x4x512) (e := .f32)
        [⟨Rect.unit ![0, 3, 0] ![1, 1, 512] inb3, k0_pay4 (F := Ideal) (k0_pay12 P)⟩,
         ⟨Rect.unit ![0, 2, 0] ![1, 1, 512] inb2, k0_pay3 (F := Ideal) (k0_pay12 P)⟩,
         ⟨Rect.unit ![0, 1, 0] ![1, 1, 512] inb1, k0_pay2 (F := Ideal) (k0_pay12 P)⟩,
         ⟨Rect.unit ![0, 0, 0] ![1, 1, 512] inb0, k0_pay1 (F := Ideal) (k0_pay13 P)⟩]
        (ix3 (0 : Fin 1) p q)
      = k0_pay12 (F := Ideal) P (ix2 p q) := by
  have h3 := piece_blockOf (k0_pay12 (F := Ideal) P) (3 : Fin 4) 3 rfl inb3 (k0_pay4 (F := Ideal) (k0_pay12 P)) (pay4_apply (k0_pay12 P))
  have h2 := piece_blockOf (k0_pay12 (F := Ideal) P) (2 : Fin 4) 2 rfl inb2 (k0_pay3 (F := Ideal) (k0_pay12 P)) (pay3_apply (k0_pay12 P))
  have h1 := piece_blockOf (k0_pay12 (F := Ideal) P) (1 : Fin 4) 1 rfl inb1 (k0_pay2 (F := Ideal) (k0_pay12 P)) (pay2_apply (k0_pay12 P))
  have h0 := piece_blockOf (k0_pay12 (F := Ideal) P) (0 : Fin 4) 0 rfl inb0 (k0_pay1 (F := Ideal) (k0_pay13 P)) (pay1_apply P)
  rw [← blockOf_ix3 (k0_pay12 (F := Ideal) P) (0 : Fin 1) p q]
  refine View.canon_apply_of_pieces (Val := Elt Ideal) (S := S1x4x512) (e := .f32) (blockOf (k0_pay12 (F := Ideal) P)) _ ?_ _ ?_
  · intro pc hpc
    rcases List.mem_cons.mp hpc with rfl | hpc
    · dsimp only
      intro x
      exact h3 x
    rcases List.mem_cons.mp hpc with rfl | hpc
    · dsimp only
      intro x
      exact h2 x
    rcases List.mem_cons.mp hpc with rfl | hpc
    · dsimp only
      intro x
      exact h1 x
    rcases List.mem_cons.mp hpc with rfl | hpc
    · dsimp only
      intro x
      exact h0 x
    · exact absurd hpc List.not_mem_nil
  · exact View.cover_of_tiledL (Val := Elt Ideal) (s := S1x4x512) (e := .f32) _ S1x1x512.size (by sl_kernel_rfl) _

/-! ## The loaded slices, and the tile from the blocks -/

theorem hz3 : (![0, 0, 0] : Fin 3 → ℕ) = fun _ => 0 := funext fun a => by fin_cases a <;> rfl

/-- A load of coordinate column `d` of the first cloud's block reads, at `(p, r, u)`, the block at `(p, r, d)`. -/
theorem ld_col (x0 : Vec Ideal S4x512x3 .f32) (d : Fin 3) (dn : ℕ) (hd : d.val = dn)
    (inb : ∀ a, (![0, 0, dn] : Fin 3 → ℕ) a + S4x512x1.size a ≤ S4x512x3.size a) (p : Fin 4) (r : Fin 512) (u : Fin 1) :
    View.ld (Val := Elt Ideal) (e' := .f32) x0 (Rect.unit (s := S4x512x3) ![0, 0, dn] S4x512x1.size inb) (ix3 p r u)
      = x0 (ix3 p r d) := by
  refine congrArg x0 ?_
  have hu : u.val = 0 := by omega
  funext c; apply Fin.ext
  fin_cases c
  · show 0 + 1 * p.val = p.val
    omega
  · show 0 + 1 * r.val = r.val
    omega
  · show dn + 1 * u.val = d.val
    omega

/-- A load of coordinate row `d` of the scaled second cloud's block reads, at `(p, u, q)`, the block at `(p, d, q)`. -/
theorem ld_row (x2 : Vec Ideal S4x3x512 .f32) (d : Fin 3) (dn : ℕ) (hd : d.val = dn)
    (inb : ∀ a, (![0, dn, 0] : Fin 3 → ℕ) a + S4x1x512.size a ≤ S4x3x512.size a) (p : Fin 4) (u : Fin 1) (q : Fin 512) :
    View.ld (Val := Elt Ideal) (e' := .f32) x2 (Rect.unit (s := S4x3x512) ![0, dn, 0] S4x1x512.size inb) (ix3 p u q)
      = x2 (ix3 p d q) := by
  refine congrArg x2 ?_
  have hu : u.val = 0 := by omega
  funext c; apply Fin.ext
  fin_cases c
  · show 0 + 1 * p.val = p.val
    omega
  · show dn + 1 * u.val = d.val
    omega
  · show 0 + 1 * q.val = q.val
    omega

/-- The body's tile, formed from the three column loads of the first block, the three row loads of the second and
    the two whole loads of the norm blocks, is `tile` of the four blocks. -/
theorem tile_of_loads (x0 : Vec Ideal S4x512x3 .f32) (x1 : Vec Ideal S4x512x1 .f32) (x2 : Vec Ideal S4x3x512 .f32)
    (x3 : Vec Ideal S4x1x512 .f32)
    (a0 : ∀ a, (![0, 0, 0] : Fin 3 → ℕ) a + S4x512x1.size a ≤ S4x512x3.size a)
    (k0 : ∀ a, (![0, 0, 0] : Fin 3 → ℕ) a + S4x1x512.size a ≤ S4x3x512.size a)
    (a1 : ∀ a, (![0, 0, 1] : Fin 3 → ℕ) a + S4x512x1.size a ≤ S4x512x3.size a)
    (k1 : ∀ a, (![0, 1, 0] : Fin 3 → ℕ) a + S4x1x512.size a ≤ S4x3x512.size a)
    (a2 : ∀ a, (![0, 0, 2] : Fin 3 → ℕ) a + S4x512x1.size a ≤ S4x512x3.size a)
    (k2 : ∀ a, (![0, 2, 0] : Fin 3 → ℕ) a + S4x1x512.size a ≤ S4x3x512.size a)
    (nx : ∀ a, (![0, 0, 0] : Fin 3 → ℕ) a + S4x512x1.size a ≤ S4x512x1.size a)
    (ny : ∀ a, (![0, 0, 0] : Fin 3 → ℕ) a + S4x1x512.size a ≤ S4x1x512.size a)
    (p : Fin 4) (r q : Fin 512) :
    k0_pay7 (F := Ideal)
        (View.ld (Val := Elt Ideal) (e' := .f32) x0 (Rect.unit (s := S4x512x3) ![0, 0, 0] S4x512x1.size a0))
        (View.ld (Val := Elt Ideal) (e' := .f32) x2 (Rect.unit (s := S4x3x512) ![0, 0, 0] S4x1x512.size k0))
        (View.ld (Val := Elt Ideal) (e' := .f32) x0 (Rect.unit (s := S4x512x3) ![0, 0, 1] S4x512x1.size a1))
        (View.ld (Val := Elt Ideal) (e' := .f32) x2 (Rect.unit (s := S4x3x512) ![0, 1, 0] S4x1x512.size k1))
        (View.ld (Val := Elt Ideal) (e' := .f32) x0 (Rect.unit (s := S4x512x3) ![0, 0, 2] S4x512x1.size a2))
        (View.ld (Val := Elt Ideal) (e' := .f32) x2 (Rect.unit (s := S4x3x512) ![0, 2, 0] S4x1x512.size k2))
        (View.ld (Val := Elt Ideal) (e' := .f32) x1 (Rect.unit (s := S4x512x1) ![0, 0, 0] S4x512x1.size nx))
        (View.ld (Val := Elt Ideal) (e' := .f32) x3 (Rect.unit (s := S4x1x512) ![0, 0, 0] S4x1x512.size ny))
        (ix3 p r q)
      = tile x0 x1 x2 x3 p r q := by
  refine (pay7_apply _ _ _ _ _ _ _ _ p r q).trans ?_
  rw [ld_col x0 (0 : Fin 3) 0 rfl a0 p r 0, ld_col x0 (1 : Fin 3) 1 rfl a1 p r 0, ld_col x0 (2 : Fin 3) 2 rfl a2 p r 0,
    ld_row x2 (0 : Fin 3) 0 rfl k0 p 0 q, ld_row x2 (1 : Fin 3) 1 rfl k1 p 0 q, ld_row x2 (2 : Fin 3) 2 rfl k2 p 0 q,
    View.ld_unit_zero (S := S4x512x1) hz3 nx, View.ld_unit_zero (S := S4x1x512) hz3 ny]
  rfl

/-! ## The three control cases -/

theorem out5_A_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : cond0_0 i) (hc1 : ¬cond0_1 i) (x0 : Vec Ideal S4x512x3 .f32) (x1 : Vec Ideal S4x512x1 .f32) (x2 : Vec Ideal S4x3x512 .f32) (x3 : Vec Ideal S4x1x512 .f32) (p : Fin 4) (q : Fin 512) :
    out0_A_5 (F := Ideal) c i arg2 harg2 arg3 harg3 arg4 harg4 arg5 harg5 arg6 harg6 arg7 harg7 arg8 harg8 hc0 hc1 x0 x1 x2 x3 (ix3 (0 : Fin 1) p q) = ⨅ r : Fin 512, tile x0 x1 x2 x3 p r q := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  sl_unfold_words
  simp only [View.readAt_eq_ld, harg2.read_unread, harg3.read_unread, harg4.read_unread, harg5.read_unread]
  refine (canon_rows _ _ _ _ _ p q).trans ?_
  refine (pay12_apply _ p q).trans ?_
  exact iInf_congr fun r => tile_of_loads x0 x1 x2 x3 _ _ _ _ _ _ _ _ p r q

theorem out5_B_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : ¬cond0_0 i) (hc1 : ¬cond0_1 i) (x0 : Vec Ideal S4x512x3 .f32) (x1 : Vec Ideal S4x512x1 .f32) (x2 : Vec Ideal S4x3x512 .f32) (x3 : Vec Ideal S4x1x512 .f32) (xs0 : Vec Ideal S4x512x128 .f32) (p : Fin 4) (q : Fin 512) :
    out0_B_5 (F := Ideal) c i arg2 harg2 arg3 harg3 arg4 harg4 arg5 harg5 arg6 harg6 arg7 harg7 arg8 harg8 hc0 hc1 x0 x1 x2 x3 xs0 (ix3 (0 : Fin 1) p q) = ⨅ r : Fin 512, tile x0 x1 x2 x3 p r q := by
  unfold out0_B_5
  rw [View.read_writes_eq_canon _ _ _ (cover0_B_5 c i arg2 harg2 arg3 harg3 arg4 harg4 arg5 harg5 arg6 harg6 arg7 harg7 arg8 harg8 hc0 hc1 x0 x1 x2 x3 xs0)]
  unfold kernelRun0_B
  dsimp only
  sl_unfold_words
  simp only [View.readAt_eq_ld, harg2.read_unread, harg3.read_unread, harg4.read_unread, harg5.read_unread]
  refine (canon_rows _ _ _ _ _ p q).trans ?_
  refine (pay12_apply _ p q).trans ?_
  exact iInf_congr fun r => tile_of_loads x0 x1 x2 x3 _ _ _ _ _ _ _ _ p r q

theorem out5_C_apply (c : Dev nD) (i : grid0.Coords) (arg2 : Memref sig .tc .vmem S4x512x3 .f32) (harg2 : arg2.IsWhole) (arg3 : Memref sig .tc .vmem S4x512x1 .f32) (harg3 : arg3.IsWhole) (arg4 : Memref sig .tc .vmem S4x3x512 .f32) (harg4 : arg4.IsWhole) (arg5 : Memref sig .tc .vmem S4x1x512 .f32) (harg5 : arg5.IsWhole) (arg6 : Memref sig .tc .vmem S4x512x1 .f32) (harg6 : arg6.IsWhole) (arg7 : Memref sig .tc .vmem S1x4x512 .f32) (harg7 : arg7.IsWhole) (arg8 : Memref sig .tc .vmem S4x512x128 .f32) (harg8 : arg8.IsWhole) (hc0 : ¬cond0_0 i) (hc1 : cond0_1 i) (x0 : Vec Ideal S4x512x3 .f32) (x1 : Vec Ideal S4x512x1 .f32) (x2 : Vec Ideal S4x3x512 .f32) (x3 : Vec Ideal S4x1x512 .f32) (xs0 : Vec Ideal S4x512x128 .f32) (p : Fin 4) (q : Fin 512) :
    out0_C_5 (F := Ideal) c i arg2 harg2 arg3 harg3 arg4 harg4 arg5 harg5 arg6 harg6 arg7 harg7 arg8 harg8 hc0 hc1 x0 x1 x2 x3 xs0 (ix3 (0 : Fin 1) p q) = ⨅ r : Fin 512, tile x0 x1 x2 x3 p r q := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  simp only [View.readAt_eq_ld, harg2.read_unread, harg3.read_unread, harg4.read_unread, harg5.read_unread]
  refine (canon_rows _ _ _ _ _ p q).trans ?_
  refine (pay12_apply _ p q).trans ?_
  exact iInf_congr fun r => tile_of_loads x0 x1 x2 x3 _ _ _ _ _ _ _ _ p r q

end Cert.KernelIdeal.ChamferCol
end
-- ==== Proof.Blocks.lean ====
/-
  What the four input blocks of one (512 × 512) tile hold, entry by entry, in terms of the two point clouds.

  The clouds `a`, `b` : [4, 8192, 3] (batch, point, coordinate) are prepared before the tiled region into
  four arrays: `a` itself; the squared norms ‖a_n‖² as a column [4, 8192, 1]; the second cloud scaled by −2
  and laid coordinate-major, (−2)·b_{m,d} at (p, d, m) of [4, 3, 8192]; the squared norms ‖b_m‖² as a row
  [4, 1, 8192]. The 256 tiles are numbered row-major over a 16 × 16 grid: tile `t` takes the 512 points of `a`
  from 512·(t / 16) on and the 512 points of `b` from 512·(t % 16) on. So, with n = 512·(t / 16) + r and
  m = 512·(t % 16) + q,
    block 0 at (p, r, d) is a_{n,d};        block 1 at (p, r, 0) is ‖a_n‖²;
    block 2 at (p, d, q) is (−2)·b_{m,d};   block 3 at (p, 0, q) is ‖b_m‖²,
  and the tile's entry (p, r, q), formed from the four blocks, is the entry (p, n, m) of the pairwise
  squared distances in the arrangement `Cert.Chamfer.pk`.

  Each block entry is read in two steps: an element of a block sits in its array, on every axis, at the
  block's index times the block's extent plus its own coordinate (the block indices are decided once over
  the grid); and each prepared array, read at an index, is a sum over the three coordinates, a broadcast
  or a transposition of the cloud it was made from.
-/
import proofs.«155688_j2044404433131_2_alg».proof.Proof.Dist
import proofs.«155688_j2044404433131_2_alg».proof.Proof.LibMinReduce
import proofs.«155688_j2044404433131_2_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChamferBlk
open Cert.KernelIdeal Cert.KernelIdeal.Gen Cert.Chamfer
variable (m : (ℓ : Loc nD τ sig) → Buf (Elt Ideal) ℓ) (c : Dev nD)

/-! ## Where each window's block sits in its array -/

/-- The block indices of the four input windows at tile `t`: windows 0 and 1 move along the point axis of `a`
    with `t / 16`, windows 2 and 3 along the point axis of `b` with `t % 16`; every other axis is taken whole. -/
theorem idx_facts : ∀ t : Fin cfg0.N,
      win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val / 16 ∧ win0_1.index t (2 : Fin 3) = 0
    ∧ win0_2.index t (0 : Fin 3) = 0 ∧ win0_2.index t (1 : Fin 3) = 0 ∧ win0_2.index t (2 : Fin 3) = t.val % 16
    ∧ win0_3.index t (0 : Fin 3) = 0 ∧ win0_3.index t (1 : Fin 3) = 0 ∧ win0_3.index t (2 : Fin 3) = t.val % 16 :=
  (by decide +kernel : ∀ t : Fin grid0.N, _)

/-- Block 0 at (p, r, d) is its array at (p, 512·(t / 16) + r, d). -/
theorem iblk0_read (t : Fin cfg0.N) (p : Fin 4) (r : Fin 512) (d : Fin 3) (hn : 512 * (t.val / 16) + r.val < 8192) :
    (iblk m c 0 t : Vec Ideal S4x512x3 .f32) (ix3 p r d)
      = (V m c main_arg0 : S4x8192x3.Idx → EReal) (ix3 p (⟨512 * (t.val / 16) + r.val, hn⟩ : Fin 8192) d) := by
  obtain ⟨e0, e1, e2, -⟩ := idx_facts t
  unfold iblk
  rw [View.read_apply]
  refine congrArg (V m c main_arg0 : S4x8192x3.Idx → EReal) ?_
  funext a
  apply Fin.ext
  match a with
  | ⟨0, _⟩ => show win0_0.index t (0 : Fin 3) * 4 + 1 * p.val = p.val; rw [e0]; omega
  | ⟨1, _⟩ => show win0_0.index t (1 : Fin 3) * 512 + 1 * r.val = 512 * (t.val / 16) + r.val; rw [e1]; omega
  | ⟨2, _⟩ => show win0_0.index t (2 : Fin 3) * 3 + 1 * d.val = d.val; rw [e2]; omega

/-- Block 1 at (p, r, 0) is its array at (p, 512·(t / 16) + r, 0). -/
theorem iblk1_read (t : Fin cfg0.N) (p : Fin 4) (r : Fin 512) (hn : 512 * (t.val / 16) + r.val < 8192) :
    (iblk m c 1 t : Vec Ideal S4x512x1 .f32) (ix3 p r (0 : Fin 1))
      = (V m c main_v2 : S4x8192x1.Idx → EReal) (ix3 p (⟨512 * (t.val / 16) + r.val, hn⟩ : Fin 8192) (0 : Fin 1)) := by
  obtain ⟨-, -, -, e0, e1, e2, -⟩ := idx_facts t
  unfold iblk
  rw [View.read_apply]
  refine congrArg (V m c main_v2 : S4x8192x1.Idx → EReal) ?_
  funext a
  apply Fin.ext
  match a with
  | ⟨0, _⟩ => show win0_1.index t (0 : Fin 3) * 4 + 1 * p.val = p.val; rw [e0]; omega
  | ⟨1, _⟩ => show win0_1.index t (1 : Fin 3) * 512 + 1 * r.val = 512 * (t.val / 16) + r.val; rw [e1]; omega
  | ⟨2, _⟩ => show win0_1.index t (2 : Fin 3) * 1 + 1 * 0 = 0; rw [e2]

/-- Block 2 at (p, d, q) is its array at (p, d, 512·(t % 16) + q). -/
theorem iblk2_read (t : Fin cfg0.N) (p : Fin 4) (d : Fin 3) (q : Fin 512) (hm : 512 * (t.val % 16) + q.val < 8192) :
    (iblk m c 2 t : Vec Ideal S4x3x512 .f32) (ix3 p d q)
      = (V m c main_v8 : S4x3x8192.Idx → EReal) (ix3 p d (⟨512 * (t.val % 16) + q.val, hm⟩ : Fin 8192)) := by
  obtain ⟨-, -, -, -, -, -, e0, e1, e2, -⟩ := idx_facts t
  unfold iblk
  rw [View.read_apply]
  refine congrArg (V m c main_v8 : S4x3x8192.Idx → EReal) ?_
  funext a
  apply Fin.ext
  match a with
  | ⟨0, _⟩ => show win0_2.index t (0 : Fin 3) * 4 + 1 * p.val = p.val; rw [e0]; omega
  | ⟨1, _⟩ => show win0_2.index t (1 : Fin 3) * 3 + 1 * d.val = d.val; rw [e1]; omega
  | ⟨2, _⟩ => show win0_2.index t (2 : Fin 3) * 512 + 1 * q.val = 512 * (t.val % 16) + q.val; rw [e2]; omega

/-- Block 3 at (p, 0, q) is its array at (p, 0, 512·(t % 16) + q). -/
theorem iblk3_read (t : Fin cfg0.N) (p : Fin 4) (q : Fin 512) (hm : 512 * (t.val % 16) + q.val < 8192) :
    (iblk m c 3 t : Vec Ideal S4x1x512 .f32) (ix3 p (0 : Fin 1) q)
      = (V m c main_v5 : S4x1x8192.Idx → EReal) (ix3 p (0 : Fin 1) (⟨512 * (t.val % 16) + q.val, hm⟩ : Fin 8192)) := by
  obtain ⟨-, -, -, -, -, -, -, -, -, e0, e1, e2⟩ := idx_facts t
  unfold iblk
  rw [View.read_apply]
  refine congrArg (V m c main_v5 : S4x1x8192.Idx → EReal) ?_
  funext a
  apply Fin.ext
  match a with
  | ⟨0, _⟩ => show win0_3.index t (0 : Fin 3) * 4 + 1 * p.val = p.val; rw [e0]; omega
  | ⟨1, _⟩ => show win0_3.index t (1 : Fin 3) * 1 + 1 * 0 = 0; rw [e1]
  | ⟨2, _⟩ => show win0_3.index t (2 : Fin 3) * 512 + 1 * q.val = 512 * (t.val % 16) + q.val; rw [e2]; omega

/-! ## The host prefix on any array, read at an index -/

/-- The sum of the squares over the coordinate axis, from the zero word, at (p, n): the squared norm of point `n`. -/
theorem sqsum_apply (x : FVec Ideal S4x8192x3 .f32) (p : Fin 4) (n : Fin 8192) :
    Host.reduceAdd (F := Ideal) (mulf x x) (constant (F := Ideal) S_ .f32 0x00000000#32) reducesTo_S4x8192x3_S4x8192_d2 h_S_ (ix2 p n)
      = sqn x p n := by
  unfold sqn
  generalize hy : mulf x x = y
  simp only [Host.reduceAdd, Ideal.hostReduceAdd_def]
  rw [Ideal.hostReduceAdd_single reducesTo_S4x8192x3_S4x8192_d2 (by decide)]
  refine congrArg₂ (· + ·) rfl (Finset.sum_congr rfl fun k _ => ?_)
  subst hy
  show x _ * x _ = _
  have e : (Shape.Reduces.lift (s := S4x8192x3) (t := S4x8192) (by decide) (ix2 p n) k : S4x8192x3.Idx) = ix3 p n k :=
    funext fun a => Fin.ext (by match a with | ⟨0, _⟩ => rfl | ⟨1, _⟩ => rfl | ⟨2, _⟩ => rfl)
  rw [e]
  rfl

/-- The squared norms laid as a column [4, 8192, 1], at (p, n, 0). -/
theorem normCol_apply (x : FVec Ideal S4x8192x3 .f32) (p : Fin 4) (n : Fin 8192) :
    broadcastInDim S4x8192x1 ![0, 1] bcast_S4x8192_S4x8192x1_0_1
        (Host.reduceAdd (F := Ideal) (mulf x x) (constant (F := Ideal) S_ .f32 0x00000000#32) reducesTo_S4x8192x3_S4x8192_d2 h_S_)
        (ix3 p n (0 : Fin 1))
      = sqn x p n := by
  refine (broadcastInDim_apply _ bcast_S4x8192_S4x8192x1_0_1 _ _ (ix2 p n) (fun a => match a with
    | ⟨0, _⟩ => by show p.val = if (4 : Nat) = 1 then 0 else p.val; rw [if_neg (by decide)]
    | ⟨1, _⟩ => by show n.val = if (8192 : Nat) = 1 then 0 else n.val; rw [if_neg (by decide)])).trans ?_
  exact sqsum_apply x p n

/-- The squared norms laid as a row [4, 1, 8192], at (p, 0, n). -/
theorem normRow_apply (x : FVec Ideal S4x8192x3 .f32) (p : Fin 4) (n : Fin 8192) :
    broadcastInDim S4x1x8192 ![0, 2] bcast_S4x8192_S4x1x8192_0_2
        (Host.reduceAdd (F := Ideal) (mulf x x) (constant (F := Ideal) S_ .f32 0x00000000#32) reducesTo_S4x8192x3_S4x8192_d2 h_S_)
        (ix3 p (0 : Fin 1) n)
      = sqn x p n := by
  refine (broadcastInDim_apply _ bcast_S4x8192_S4x1x8192_0_2 _ _ (ix2 p n) (fun a => match a with
    | ⟨0, _⟩ => by show p.val = if (4 : Nat) = 1 then 0 else p.val; rw [if_neg (by decide)]
    | ⟨1, _⟩ => by show n.val = if (8192 : Nat) = 1 then 0 else n.val; rw [if_neg (by decide)])).trans ?_
  exact sqsum_apply x p n

/-- The cloud scaled by the word of −2 and laid coordinate-major, at (p, d, n): (−2)·x_{n,d}. -/
theorem scaledT_apply (x : FVec Ideal S4x8192x3 .f32) (p : Fin 4) (d : Fin 3) (n : Fin 8192) :
    mulf (broadcastInDim S4x3x8192 ![] bcast_S_S4x3x8192 (constant (F := Ideal) S_ .f32 0xC0000000#32))
        (transpose S4x3x8192 [0, 2, 1] x transposes_S4x8192x3_S4x3x8192_0_2_1) (ix3 p d n)
      = Ideal.ofBits .f32 0xC0000000#32 * x (ix3 p n d) := by
  rw [mulf_apply]
  refine congrArg₂ (· * ·) rfl ?_
  exact transpose_apply _ x transposes_S4x8192x3_S4x3x8192_0_2_1 _ _
    fun b => match b with | ⟨0, _⟩ => rfl | ⟨1, _⟩ => rfl | ⟨2, _⟩ => rfl

/-! ## What the host prefix leaves in the windows' arrays -/

/-- The array under window 1 when the tiles start: the squared norms of `a` as a column. -/
theorem V_main_v2 : (V m c main_v2 : S4x8192x1.Idx → EReal)
    = broadcastInDim S4x8192x1 ![0, 1] bcast_S4x8192_S4x8192x1_0_1
        (Host.reduceAdd (F := Ideal) (mulf (m ((c : Thread nD τ).loc main_arg0)) (m ((c : Thread nD τ).loc main_arg0)))
          (constant (F := Ideal) S_ .f32 0x00000000#32) reducesTo_S4x8192x3_S4x8192_d2 h_S_) := by
  show StableHlo.after hostOps0 (fun b => m (c, b)) (Proc.devRef .tc main_v2) = _
  after_results

/-- The array under window 3 when the tiles start: the squared norms of `b` as a row. -/
theorem V_main_v5 : (V m c main_v5 : S4x1x8192.Idx → EReal)
    = broadcastInDim S4x1x8192 ![0, 2] bcast_S4x8192_S4x1x8192_0_2
        (Host.reduceAdd (F := Ideal) (mulf (m ((c : Thread nD τ).loc main_arg1)) (m ((c : Thread nD τ).loc main_arg1)))
          (constant (F := Ideal) S_ .f32 0x00000000#32) reducesTo_S4x8192x3_S4x8192_d2 h_S_) := by
  show StableHlo.after hostOps0 (fun b => m (c, b)) (Proc.devRef .tc main_v5) = _
  after_results

/-- The array under window 2 when the tiles start: `b` scaled by −2, coordinate-major. -/
theorem V_main_v8 : (V m c main_v8 : S4x3x8192.Idx → EReal)
    = mulf (broadcastInDim S4x3x8192 ![] bcast_S_S4x3x8192 (constant (F := Ideal) S_ .f32 0xC0000000#32))
        (transpose S4x3x8192 [0, 2, 1] (m ((c : Thread nD τ).loc main_arg1)) transposes_S4x8192x3_S4x3x8192_0_2_1) := by
  show StableHlo.after hostOps0 (fun b => m (c, b)) (Proc.devRef .tc main_v8) = _
  after_results

/-! ## The four blocks at a grid point, and the tile's entry -/

/-- Block 0 holds the tile's 512 points of `a`. -/
theorem iblk0_apply (t : Fin cfg0.N) (p : Fin 4) (r : Fin 512) (d : Fin 3) (hn : 512 * (t.val / 16) + r.val < 8192) :
    (iblk m c 0 t : Vec Ideal S4x512x3 .f32) (ix3 p r d) = m ((c : Thread nD τ).loc main_arg0) (ix3 p (⟨512 * (t.val / 16) + r.val, hn⟩ : Fin 8192) d) := by
  rw [iblk0_read m c t p r d hn, V_main_arg0]

/-- Block 1 holds their squared norms. -/
theorem iblk1_apply (t : Fin cfg0.N) (p : Fin 4) (r : Fin 512) (hn : 512 * (t.val / 16) + r.val < 8192) :
    (iblk m c 1 t : Vec Ideal S4x512x1 .f32) (ix3 p r (0 : Fin 1)) = sqn (m ((c : Thread nD τ).loc main_arg0)) p ⟨512 * (t.val / 16) + r.val, hn⟩ := by
  rw [iblk1_read m c t p r hn, V_main_v2]
  exact normCol_apply _ p _

/-- Block 2 holds the tile's 512 points of `b`, each coordinate scaled by −2. -/
theorem iblk2_apply (t : Fin cfg0.N) (p : Fin 4) (d : Fin 3) (q : Fin 512) (hm : 512 * (t.val % 16) + q.val < 8192) :
    (iblk m c 2 t : Vec Ideal S4x3x512 .f32) (ix3 p d q) = Ideal.ofBits .f32 0xC0000000#32 * m ((c : Thread nD τ).loc main_arg1) (ix3 p (⟨512 * (t.val % 16) + q.val, hm⟩ : Fin 8192) d) := by
  rw [iblk2_read m c t p d q hm, V_main_v8]
  exact scaledT_apply _ p d _

/-- Block 3 holds their squared norms. -/
theorem iblk3_apply (t : Fin cfg0.N) (p : Fin 4) (q : Fin 512) (hm : 512 * (t.val % 16) + q.val < 8192) :
    (iblk m c 3 t : Vec Ideal S4x1x512 .f32) (ix3 p (0 : Fin 1) q) = sqn (m ((c : Thread nD τ).loc main_arg1)) p ⟨512 * (t.val % 16) + q.val, hm⟩ := by
  rw [iblk3_read m c t p q hm, V_main_v5]
  exact normRow_apply _ p _

/-- The tile's entry (p, r, q) over its four blocks is the pairwise entry (p, 512·(t / 16) + r, 512·(t % 16) + q). -/
theorem tile_iblk (t : Fin cfg0.N) (p : Fin 4) (r q : Fin 512) (hn : 512 * (t.val / 16) + r.val < 8192) (hm : 512 * (t.val % 16) + q.val < 8192) :
    tile (iblk m c 0 t : Vec Ideal S4x512x3 .f32) (iblk m c 1 t : Vec Ideal S4x512x1 .f32) (iblk m c 2 t : Vec Ideal S4x3x512 .f32) (iblk m c 3 t : Vec Ideal S4x1x512 .f32) p r q
      = pk (m ((c : Thread nD τ).loc main_arg0)) (m ((c : Thread nD τ).loc main_arg1)) p ⟨512 * (t.val / 16) + r.val, hn⟩ ⟨512 * (t.val % 16) + q.val, hm⟩ := by
  unfold tile pk
  rw [iblk1_apply m c t p r hn, iblk3_apply m c t p q hm,
    iblk0_apply m c t p r 0 hn, iblk0_apply m c t p r 1 hn, iblk0_apply m c t p r 2 hn,
    iblk2_apply m c t p 0 q hm, iblk2_apply m c t p 1 q hm, iblk2_apply m c t p 2 q hm]

end Cert.KernelIdeal.ChamferBlk
end
-- ==== Proof.Inv.lean ====
/-
  The running minima of the tiled program, point by point.

  The grid is 16 row tiles by 16 column tiles of 512 × 512 entries, walked row tile by row tile. Within a row
  tile the program carries 128 lanes per table row: lane l is folded, at each column tile, with the entries at
  the four columns of that tile congruent to l modulo 128. By induction on the point, after column tile j lane l
  is the greatest lower bound of the entries of its row at the columns ≡ l (mod 128) of the tiles 0 … j; so
  after the last tile the minimum over the lanes is the minimum over all 8192 columns. Beside it every point
  writes, for each column of its tile, the minimum over the tile's 512 rows.
-/
import proofs.«155688_j2044404433131_2_alg».proof.Proof.Dist
import proofs.«155688_j2044404433131_2_alg».proof.Proof.LibMinReduce
import proofs.«155688_j2044404433131_2_alg».proof.Proof.AccPieces
import proofs.«155688_j2044404433131_2_alg».proof.Proof.ColPieces
import proofs.«155688_j2044404433131_2_alg».proof.Proof.Blocks
import proofs.«155688_j2044404433131_2_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChamferInv
open Cert.KernelIdeal Cert.KernelIdeal.Gen Cert.Chamfer Cert.KernelIdeal.ChamferAcc Cert.KernelIdeal.ChamferCol Cert.KernelIdeal.ChamferBlk

variable (m : (ℓ : Loc nD τ sig) → Buf (Elt Ideal) ℓ) (c : Dev nD)

/-- The entries of the two argument arrays as launched. -/
abbrev ent : Fin 4 → Fin 8192 → Fin 8192 → EReal :=
  pk (m ((c : Thread nD τ).loc main_arg0)) (m ((c : Thread nD τ).loc main_arg1))

/-! ## One point's step, case by case

Point `t` of the 16 × 16 grid is row tile `t / 16`, column tile `t % 16`. At the first column tile the
accumulator starts from `+∞`; at the others from what the point before left; at the last one the lane minimum
of the accumulator goes to the first output. -/

/-- The tile's row `r` at point `t` is row `512 (t / 16) + r` of the entries, at columns `512 (t % 16) + q`. -/
theorem tileRow (t : Fin cfg0.N) (hN : t.val < 256) (p : Fin 4) (r : Fin 512) :
    (tile (iblk m c 0 t : Vec Ideal S4x512x3 .f32) (iblk m c 1 t : Vec Ideal S4x512x1 .f32) (iblk m c 2 t : Vec Ideal S4x3x512 .f32) (iblk m c 3 t : Vec Ideal S4x1x512 .f32) p r) = fun q : Fin 512 => ent m c p ⟨512 * (t.val / 16) + r.val, by have := r.isLt; omega⟩ ⟨512 * (t.val % 16) + q.val, by have := q.isLt; omega⟩ :=
  funext fun q => tile_iblk m c t p r q _ _

theorem acc_first (t : Fin cfg0.N) (hN : t.val < 256) (h0 : t.val % 16 = 0) (p : Fin 4) (r : Fin 512) (l : Fin 128) :
    (outsAt0 m c t.val t.isLt).2.2 (ix3 p r l) = fold4 ⊤ (fun q : Fin 512 => ent m c p ⟨512 * (t.val / 16) + r.val, by have := r.isLt; omega⟩ ⟨512 * (t.val % 16) + q.val, by have := q.isLt; omega⟩) l := by
  have h1 : ¬t.val % 16 = 15 := by omega
  rw [outsAt0_A m c t h0 h1]
  dsimp only
  exact (sout_A_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => h1 ((hcond0_1 t).mp hh)) (iblk m c 0 t) (iblk m c 1 t) (iblk m c 2 t) (iblk m c 3 t) p r l).trans
    (congrArg (fun T => fold4 ⊤ T l) (tileRow m c t hN p r))

theorem acc_middle (t : Fin cfg0.N) (hN : t.val < 256) (h0 : ¬t.val % 16 = 0) (h1 : ¬t.val % 16 = 15) (p : Fin 4) (r : Fin 512) (l : Fin 128) :
    (outsAt0 m c t.val t.isLt).2.2 (ix3 p r l)
      = fold4 ((outsAt0 m c (t.val - 1) (Nat.lt_of_le_of_lt (Nat.sub_le _ _) t.isLt)).2.2 (ix3 p r l)) (fun q : Fin 512 => ent m c p ⟨512 * (t.val / 16) + r.val, by have := r.isLt; omega⟩ ⟨512 * (t.val % 16) + q.val, by have := q.isLt; omega⟩) l := by
  rw [outsAt0_B m c t h0 h1]
  dsimp only
  exact (sout_B_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2.2 p r l).trans
    (congrArg (fun T => fold4 ((outsAt0 m c (t.val - 1) (Nat.lt_of_le_of_lt (Nat.sub_le _ _) t.isLt)).2.2 (ix3 p r l)) T l) (tileRow m c t hN p r))

theorem acc_last (t : Fin cfg0.N) (hN : t.val < 256) (h0 : ¬t.val % 16 = 0) (h1 : t.val % 16 = 15) (p : Fin 4) (r : Fin 512) (l : Fin 128) :
    (outsAt0 m c t.val t.isLt).2.2 (ix3 p r l)
      = fold4 ((outsAt0 m c (t.val - 1) (Nat.lt_of_le_of_lt (Nat.sub_le _ _) t.isLt)).2.2 (ix3 p r l)) (fun q : Fin 512 => ent m c p ⟨512 * (t.val / 16) + r.val, by have := r.isLt; omega⟩ ⟨512 * (t.val % 16) + q.val, by have := q.isLt; omega⟩) l := by
  rw [outsAt0_C m c t h0 h1]
  dsimp only
  exact (sout_C_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.2 p r l).trans
    (congrArg (fun T => fold4 ((outsAt0 m c (t.val - 1) (Nat.lt_of_le_of_lt (Nat.sub_le _ _) t.isLt)).2.2 (ix3 p r l)) T l) (tileRow m c t hN p r))

/-- Away from the first column tile, whichever case the point is in, the accumulator is the fold of the one before. -/
theorem acc_later (t : Fin cfg0.N) (hN : t.val < 256) (h0 : ¬t.val % 16 = 0) (p : Fin 4) (r : Fin 512) (l : Fin 128) :
    (outsAt0 m c t.val t.isLt).2.2 (ix3 p r l)
      = fold4 ((outsAt0 m c (t.val - 1) (Nat.lt_of_le_of_lt (Nat.sub_le _ _) t.isLt)).2.2 (ix3 p r l)) (fun q : Fin 512 => ent m c p ⟨512 * (t.val / 16) + r.val, by have := r.isLt; omega⟩ ⟨512 * (t.val % 16) + q.val, by have := q.isLt; omega⟩) l := by
  by_cases h1 : t.val % 16 = 15
  · exact acc_last m c t hN h0 h1 p r l
  · exact acc_middle m c t hN h0 h1 p r l

/-- After every point the second output's buffer holds the tile's column minima. -/
theorem out5_at (t : Fin cfg0.N) (hN : t.val < 256) (p : Fin 4) (q : Fin 512) :
    (outsAt0 m c t.val t.isLt).2.1 (ix3 (0 : Fin 1) p q)
      = tileColMin (ent m c) ⟨t.val / 16, by omega⟩ p ⟨512 * (t.val % 16) + q.val, by have := q.isLt; omega⟩ := by
  have e : (⨅ r : Fin 512, tile (iblk m c 0 t : Vec Ideal S4x512x3 .f32) (iblk m c 1 t : Vec Ideal S4x512x1 .f32) (iblk m c 2 t : Vec Ideal S4x3x512 .f32) (iblk m c 3 t : Vec Ideal S4x1x512 .f32) p r q)
      = tileColMin (ent m c) ⟨t.val / 16, by omega⟩ p ⟨512 * (t.val % 16) + q.val, by have := q.isLt; omega⟩ := by
    unfold tileColMin
    refine iInf_congr fun r => ?_
    exact tile_iblk m c t p r q (by have := r.isLt; omega) (by have := q.isLt; omega)
  by_cases h0 : t.val % 16 = 0
  · have h1 : ¬t.val % 16 = 15 := by omega
    rw [outsAt0_A m c t h0 h1]
    dsimp only
    exact (out5_A_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => h1 ((hcond0_1 t).mp hh)) (iblk m c 0 t) (iblk m c 1 t) (iblk m c 2 t) (iblk m c 3 t) p q).trans e
  · by_cases h1 : t.val % 16 = 15
    · rw [outsAt0_C m c t h0 h1]
      dsimp only
      exact (out5_C_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.2 p q).trans e
    · rw [outsAt0_B m c t h0 h1]
      dsimp only
      exact (out5_B_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2.2 p q).trans e

/-- At the last column tile the first output's buffer holds the lane minima of the accumulator the point leaves. -/
theorem out4_at (t : Fin cfg0.N) (h1 : t.val % 16 = 15) (p : Fin 4) (r : Fin 512) :
    (outsAt0 m c t.val t.isLt).1 (ix3 p r (0 : Fin 1)) = ⨅ l : Fin 128, (outsAt0 m c t.val t.isLt).2.2 (ix3 p r l) := by
  have h0 : ¬t.val % 16 = 0 := by omega
  rw [outsAt0_C m c t h0 h1]
  dsimp only
  refine (out4_C_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.2 p r).trans (iInf_congr fun l => ?_)
  exact (sout_C_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2.2 p r l).symm

/-! ## The accumulator's invariant -/

/-- After point `n` lane `l` of the accumulator's row `r` is the greatest lower bound of the entries of row
    `512 (n / 16) + r` at the columns ≡ `l` (mod 128) of the column tiles up to `n % 16`. -/
theorem acc_inv : ∀ (n : ℕ) (h : n < cfg0.N) (hN : n < 256) (p : Fin 4) (r : Fin 512) (l : Fin 128) (z : EReal),
    z ≤ (outsAt0 m c n h).2.2 (ix3 p r l) ↔ ∀ mm : Fin 8192, mm.val % 128 = l.val → mm.val / 512 ≤ n % 16 →
      z ≤ ent m c p ⟨512 * (n / 16) + r.val, by have := r.isLt; omega⟩ mm := by
  intro n
  induction n with
  | zero =>
    intro h hN p r l z
    have hr := r.isLt
    rw [acc_first m c ⟨0, h⟩ hN rfl p r l, le_fold4]
    exact acc_step (fun mm => ent m c p ⟨512 * (0 / 16) + r.val, by omega⟩ mm) l (0 % 16) (by omega) z ⊤
      ⟨fun _ mm _ hq => absurd hq (by omega), fun _ => le_top⟩
  | succ k ih =>
    intro h hN p r l z
    have hr := r.isLt
    by_cases h0 : (k + 1) % 16 = 0
    · rw [acc_first m c ⟨k + 1, h⟩ hN h0 p r l, le_fold4]
      exact acc_step (fun mm => ent m c p ⟨512 * ((k + 1) / 16) + r.val, by omega⟩ mm) l ((k + 1) % 16) (by omega) z ⊤
        ⟨fun _ mm _ hq => absurd hq (by omega), fun _ => le_top⟩
    · rw [acc_later m c ⟨k + 1, h⟩ hN h0 p r l, le_fold4]
      refine acc_step (fun mm => ent m c p ⟨512 * ((k + 1) / 16) + r.val, by omega⟩ mm) l ((k + 1) % 16) (by omega) z _ ?_
      refine (ih (Nat.lt_of_succ_lt h) (by omega) p r l z).trans ?_
      have e : (⟨512 * (k / 16) + r.val, by omega⟩ : Fin 8192) = ⟨512 * ((k + 1) / 16) + r.val, by omega⟩ :=
        Fin.ext (by show 512 * (k / 16) + r.val = 512 * ((k + 1) / 16) + r.val; omega)
      constructor
      · intro hh mm hm hq
        have := hh mm hm (by omega)
        rwa [e] at this
      · intro hh mm hm hq
        have := hh mm hm (by omega)
        rwa [e]

/-! ## What the two outputs' buffers hold -/

/-- After every point the second output's buffer holds the tile's column minima. -/
theorem out5_eq (n : ℕ) (h : n < cfg0.N) (hN : n < 256) (p : Fin 4) (q : Fin 512) :
    (outsAt0 m c n h).2.1 (ix3 (0 : Fin 1) p q)
      = tileColMin (pk (m ((c : Thread nD τ).loc main_arg0)) (m ((c : Thread nD τ).loc main_arg1))) ⟨n / 16, by omega⟩ p ⟨512 * (n % 16) + q.val, by have := q.isLt; omega⟩ :=
  out5_at m c ⟨n, h⟩ hN p q

/-- After the last column tile the first output's buffer holds the rows' minima over ALL columns. -/
theorem out4_eq (n : ℕ) (h : n < cfg0.N) (hN : n < 256) (h15 : n % 16 = 15) (p : Fin 4) (r : Fin 512) :
    (outsAt0 m c n h).1 (ix3 p r (0 : Fin 1))
      = rowMin (pk (m ((c : Thread nD τ).loc main_arg0)) (m ((c : Thread nD τ).loc main_arg1))) p ⟨512 * (n / 16) + r.val, by have := r.isLt; omega⟩ := by
  rw [out4_at m c ⟨n, h⟩ h15 p r]
  unfold rowMin
  exact iInf_lanes (fun mm => ent m c p ⟨512 * (n / 16) + r.val, by have := r.isLt; omega⟩ mm) _ fun l z =>
    (acc_inv m c n h hN p r l z).trans (by rw [h15])

end Cert.KernelIdeal.ChamferInv

end
-- ==== Proof.Final.lean ====
/-
  From the blocks each grid point writes back to the two arrays the tiled program leaves.

  The first output array [4, 8192, 1] is written in sixteen blocks of 512 rows, block i by the last point of
  row tile i (the point 16·i + 15); the second, [16, 4, 8192], in 256 blocks [1, 4, 512], block (i, j) by the
  point 16·i + j. If what each of those points writes back is its block of ONE function of the array's index
  — the row minima for the first array, the per-tile column minima for the second — then, the blocks tiling
  the array, the array ends holding that function: row n lies in block n / 512, and entry (i, p, mm) in block
  (i, mm / 512). An element of a block sits in the array at (block index) · (block size) + (its coordinate).
-/
import proofs.«155688_j2044404433131_2_alg».proof.Proof.Dist
import proofs.«155688_j2044404433131_2_alg».proof.Proof.LibMinReduce
import proofs.«155688_j2044404433131_2_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChamferFinal
open Cert.KernelIdeal Cert.KernelIdeal.Gen Cert.Chamfer
variable (m : (ℓ : Loc nD τ sig) → Buf (Elt Ideal) ℓ) (c : Dev nD)

/-! ## The first output array: sixteen blocks of 512 rows -/

/-- The row minima read at an index whose first two coordinates are known. -/
theorem o1_at (P : Fin 4 → Fin 8192 → Fin 8192 → EReal) (i : O1.Idx) (p : Fin 4) (n : Fin 8192)
    (h0 : (i 0).val = p.val) (h1 : (i 1).val = n.val) : o1 P i = rowMin P p n := by
  have e0 : (i 0 : Fin 4) = p := Fin.ext h0
  have e1 : (i 1 : Fin 8192) = n := Fin.ext h1
  exact congrArg₂ (rowMin P) e0 e1

/-- The block index of the first output at point `t`, decided over the grid: (0, t / 16, 0). -/
theorem idx4 : ∀ t : Fin cfg0.N, win0_4.index t (0 : Fin 3) = 0 ∧ win0_4.index t (1 : Fin 3) = t.val / 16
    ∧ win0_4.index t (2 : Fin 3) = 0 :=
  (by decide +kernel : ∀ t : Fin grid0.N, _)

/-- What a writing point writes back is its block of the row minima: the block's row `r` is row
    512 · (t / 16) + r of the array. -/
theorem flushed4_eq (P : Fin 4 → Fin 8192 → Fin 8192 → EReal)
    (h4 : ∀ (n : ℕ) (h : n < cfg0.N) (hN : n < 256), n % 16 = 15 → ∀ (p : Fin 4) (r : Fin 512),
      (outsAt0 m c n h).1 (ix3 p r (0 : Fin 1))
        = rowMin P p ⟨512 * (n / 16) + r.val, by have := r.isLt; omega⟩)
    (t : Fin cfg0.N) (hf : (cfg0.win 4).flush t = true) :
    (dats m 0 c).flushed 4 t = ((cfg0.win 4).blk t).view.read (Elt Ideal) (o1 P) := by
  have hN : cfg0.N = 256 := N_0
  have ht : t.val < 256 := by have := t.isLt; omega
  have h15 : t.val % 16 = 15 := (flush0_4 t).mp hf
  obtain ⟨e0, e1, e2⟩ := idx4 t
  show (cfg0.win 4).cut (grid0.coords t) ((dats m 0 c).after 4 t) = _
  rw [after0_4]
  funext y
  have hp : (y 0).val < 4 := (y 0).isLt
  have hr : (y 1).val < 512 := (y 1).isLt
  have hz : (y 2).val < 1 := (y 2).isLt
  rw [View.read_apply]
  have hy : (cfg0.win 4).xinj (grid0.coords t) y = ix3 (⟨(y 0).val, hp⟩ : Fin 4) (⟨(y 1).val, hr⟩ : Fin 512) (0 : Fin 1) := by
    funext a
    apply Fin.ext
    match a with
    | ⟨0, _⟩ => rfl
    | ⟨1, _⟩ => rfl
    | ⟨2, _⟩ => show (y 2).val = 0; omega
  show (outsAt0 m c t.val t.isLt).1 ((cfg0.win 4).xinj (grid0.coords t) y) = _
  rw [hy, h4 t.val t.isLt ht h15 ⟨(y 0).val, hp⟩ ⟨(y 1).val, hr⟩]
  refine (o1_at P (((cfg0.win 4).blk t).view.emb y) ⟨(y 0).val, hp⟩ ⟨512 * (t.val / 16) + (y 1).val, by omega⟩ ?_ ?_).symm
  · show win0_4.index t (0 : Fin 3) * 4 + 1 * (y 0).val = (y 0).val
    rw [e0]; omega
  · show win0_4.index t (1 : Fin 3) * 512 + 1 * (y 1).val = 512 * (t.val / 16) + (y 1).val
    rw [e1]; omega

/-- An index of the array is in point `t`'s block iff each coordinate is in the block's range on its axis. -/
theorem mem_blk4 (t : Fin cfg0.N) (i : O1.Idx) :
    i ∈ ((cfg0.win 4).blk t).view.set ↔ ∀ a : Fin 3, win0_4.index t a * S4x512x1.size a ≤ (i a).val
      ∧ (i a).val < win0_4.index t a * S4x512x1.size a + S4x512x1.size a := by
  show i ∈ ((View.whole main_v9_0).slice (win0_4.rect t)).set ↔ _
  rw [View.set_slice_whole, Rect.mem_set_unit]
  exact Iff.rfl

/-- Row `n` of the array lies in the block the last point of row tile `n / 512` writes back. -/
theorem cover4 (i : O1.Idx) : ∃ t : Fin cfg0.N, (cfg0.win 4).flush t = true ∧ i ∈ ((cfg0.win 4).blk t).view.set := by
  have hN : cfg0.N = 256 := N_0
  have h0 : (i 0).val < 4 := (i 0).isLt
  have h1 : (i 1).val < 8192 := (i 1).isLt
  have h2 : (i 2).val < 1 := (i 2).isLt
  have hlt : 16 * ((i 1).val / 512) + 15 < cfg0.N := by omega
  obtain ⟨e0, e1, e2⟩ := idx4 ⟨16 * ((i 1).val / 512) + 15, hlt⟩
  refine ⟨⟨16 * ((i 1).val / 512) + 15, hlt⟩, (flush0_4 _).mpr (by show (16 * ((i 1).val / 512) + 15) % 16 = 15; omega), ?_⟩
  rw [mem_blk4]
  intro a
  match a with
  | ⟨0, _⟩ =>
    show win0_4.index ⟨16 * ((i 1).val / 512) + 15, hlt⟩ (0 : Fin 3) * 4 ≤ (i 0).val
      ∧ (i 0).val < win0_4.index ⟨16 * ((i 1).val / 512) + 15, hlt⟩ (0 : Fin 3) * 4 + 4
    rw [e0]; omega
  | ⟨1, _⟩ =>
    show win0_4.index ⟨16 * ((i 1).val / 512) + 15, hlt⟩ (1 : Fin 3) * 512 ≤ (i 1).val
      ∧ (i 1).val < win0_4.index ⟨16 * ((i 1).val / 512) + 15, hlt⟩ (1 : Fin 3) * 512 + 512
    rw [e1]
    show (16 * ((i 1).val / 512) + 15) / 16 * 512 ≤ (i 1).val ∧ (i 1).val < (16 * ((i 1).val / 512) + 15) / 16 * 512 + 512
    omega
  | ⟨2, _⟩ =>
    show win0_4.index ⟨16 * ((i 1).val / 512) + 15, hlt⟩ (2 : Fin 3) * 1 ≤ (i 2).val
      ∧ (i 2).val < win0_4.index ⟨16 * ((i 1).val / 512) + 15, hlt⟩ (2 : Fin 3) * 1 + 1
    rw [e2]; omega

/-- THE FIRST OUTPUT ARRAY after the run holds the row minima. -/
theorem final4
    (h4 : ∀ (n : ℕ) (h : n < cfg0.N) (hN : n < 256), n % 16 = 15 → ∀ (p : Fin 4) (r : Fin 512),
      (outsAt0 m c n h).1 (ix3 p r (0 : Fin 1))
        = rowMin (pk (m ((c : Thread nD τ).loc main_arg0)) (m ((c : Thread nD τ).loc main_arg1))) p ⟨512 * (n / 16) + r.val, by have := r.isLt; omega⟩) :
    ((dats m 0 c).arrAt 4 cfg0.N : O1.Idx → EReal) = o1 (pk (m ((c : Thread nD τ).loc main_arg0)) (m ((c : Thread nD τ).loc main_arg1))) :=
  (dats m 0 c).arrAt_eq_of_cover 4 (o1 (pk (m ((c : Thread nD τ).loc main_arg0)) (m ((c : Thread nD τ).loc main_arg1))))
    (fun t hf => flushed4_eq m c _ h4 t hf) cover4

/-! ## The second output array: 256 blocks, one per point -/

/-- The per-tile column minima read at an index whose coordinates are known. -/
theorem o2_at (P : Fin 4 → Fin 8192 → Fin 8192 → EReal) (i : O2.Idx) (ii : Fin 16) (p : Fin 4) (mm : Fin 8192)
    (h0 : (i 0).val = ii.val) (h1 : (i 1).val = p.val) (h2 : (i 2).val = mm.val) : o2 P i = tileColMin P ii p mm := by
  have e0 : (i 0 : Fin 16) = ii := Fin.ext h0
  have e1 : (i 1 : Fin 4) = p := Fin.ext h1
  have e2 : (i 2 : Fin 8192) = mm := Fin.ext h2
  exact _root_.congr (congrArg₂ (tileColMin P) e0 e1) e2

/-- The block index of the second output at point `t`, decided over the grid: (t / 16, 0, t % 16). -/
theorem idx5 : ∀ t : Fin cfg0.N, win0_5.index t (0 : Fin 3) = t.val / 16 ∧ win0_5.index t (1 : Fin 3) = 0
    ∧ win0_5.index t (2 : Fin 3) = t.val % 16 :=
  (by decide +kernel : ∀ t : Fin grid0.N, _)

/-- What each point writes back is its block of the per-tile column minima: the block's column `q` is column
    512 · (t % 16) + q of row tile t / 16. -/
theorem flushed5_eq (P : Fin 4 → Fin 8192 → Fin 8192 → EReal)
    (h5 : ∀ (n : ℕ) (h : n < cfg0.N) (hN : n < 256) (p : Fin 4) (q : Fin 512),
      (outsAt0 m c n h).2.1 (ix3 (0 : Fin 1) p q)
        = tileColMin P ⟨n / 16, by omega⟩ p ⟨512 * (n % 16) + q.val, by have := q.isLt; omega⟩)
    (t : Fin cfg0.N) :
    (dats m 0 c).flushed 5 t = ((cfg0.win 5).blk t).view.read (Elt Ideal) (o2 P) := by
  have hN : cfg0.N = 256 := N_0
  have ht : t.val < 256 := by have := t.isLt; omega
  obtain ⟨e0, e1, e2⟩ := idx5 t
  show (cfg0.win 5).cut (grid0.coords t) ((dats m 0 c).after 5 t) = _
  rw [after0_5]
  funext y
  have hz : (y 0).val < 1 := (y 0).isLt
  have hp : (y 1).val < 4 := (y 1).isLt
  have hq : (y 2).val < 512 := (y 2).isLt
  rw [View.read_apply]
  have hy : (cfg0.win 5).xinj (grid0.coords t) y = ix3 (0 : Fin 1) (⟨(y 1).val, hp⟩ : Fin 4) (⟨(y 2).val, hq⟩ : Fin 512) := by
    funext a
    apply Fin.ext
    match a with
    | ⟨0, _⟩ => show (y 0).val = 0; omega
    | ⟨1, _⟩ => rfl
    | ⟨2, _⟩ => rfl
  show (outsAt0 m c t.val t.isLt).2.1 ((cfg0.win 5).xinj (grid0.coords t) y) = _
  rw [hy, h5 t.val t.isLt ht ⟨(y 1).val, hp⟩ ⟨(y 2).val, hq⟩]
  refine (o2_at P (((cfg0.win 5).blk t).view.emb y) ⟨t.val / 16, by omega⟩ ⟨(y 1).val, hp⟩
    ⟨512 * (t.val % 16) + (y 2).val, by omega⟩ ?_ ?_ ?_).symm
  · show win0_5.index t (0 : Fin 3) * 1 + 1 * (y 0).val = t.val / 16
    rw [e0]; omega
  · show win0_5.index t (1 : Fin 3) * 4 + 1 * (y 1).val = (y 1).val
    rw [e1]; omega
  · show win0_5.index t (2 : Fin 3) * 512 + 1 * (y 2).val = 512 * (t.val % 16) + (y 2).val
    rw [e2]; omega

/-- An index of the array is in point `t`'s block iff each coordinate is in the block's range on its axis. -/
theorem mem_blk5 (t : Fin cfg0.N) (i : O2.Idx) :
    i ∈ ((cfg0.win 5).blk t).view.set ↔ ∀ a : Fin 3, win0_5.index t a * S1x4x512.size a ≤ (i a).val
      ∧ (i a).val < win0_5.index t a * S1x4x512.size a + S1x4x512.size a := by
  show i ∈ ((View.whole main_v9_1).slice (win0_5.rect t)).set ↔ _
  rw [View.set_slice_whole, Rect.mem_set_unit]
  exact Iff.rfl

/-- Entry (ii, p, mm) of the array lies in the block of the point 16 · ii + mm / 512. -/
theorem cover5 (i : O2.Idx) : ∃ t : Fin cfg0.N, (cfg0.win 5).flush t = true ∧ i ∈ ((cfg0.win 5).blk t).view.set := by
  have hN : cfg0.N = 256 := N_0
  have h0 : (i 0).val < 16 := (i 0).isLt
  have h1 : (i 1).val < 4 := (i 1).isLt
  have h2 : (i 2).val < 8192 := (i 2).isLt
  have hlt : 16 * (i 0).val + (i 2).val / 512 < cfg0.N := by omega
  obtain ⟨e0, e1, e2⟩ := idx5 ⟨16 * (i 0).val + (i 2).val / 512, hlt⟩
  refine ⟨⟨16 * (i 0).val + (i 2).val / 512, hlt⟩, flush0_5 _, ?_⟩
  rw [mem_blk5]
  intro a
  match a with
  | ⟨0, _⟩ =>
    show win0_5.index ⟨16 * (i 0).val + (i 2).val / 512, hlt⟩ (0 : Fin 3) * 1 ≤ (i 0).val
      ∧ (i 0).val < win0_5.index ⟨16 * (i 0).val + (i 2).val / 512, hlt⟩ (0 : Fin 3) * 1 + 1
    rw [e0]
    show (16 * (i 0).val + (i 2).val / 512) / 16 * 1 ≤ (i 0).val ∧ (i 0).val < (16 * (i 0).val + (i 2).val / 512) / 16 * 1 + 1
    omega
  | ⟨1, _⟩ =>
    show win0_5.index ⟨16 * (i 0).val + (i 2).val / 512, hlt⟩ (1 : Fin 3) * 4 ≤ (i 1).val
      ∧ (i 1).val < win0_5.index ⟨16 * (i 0).val + (i 2).val / 512, hlt⟩ (1 : Fin 3) * 4 + 4
    rw [e1]; omega
  | ⟨2, _⟩ =>
    show win0_5.index ⟨16 * (i 0).val + (i 2).val / 512, hlt⟩ (2 : Fin 3) * 512 ≤ (i 2).val
      ∧ (i 2).val < win0_5.index ⟨16 * (i 0).val + (i 2).val / 512, hlt⟩ (2 : Fin 3) * 512 + 512
    rw [e2]
    show (16 * (i 0).val + (i 2).val / 512) % 16 * 512 ≤ (i 2).val ∧ (i 2).val < (16 * (i 0).val + (i 2).val / 512) % 16 * 512 + 512
    omega

/-- THE SECOND OUTPUT ARRAY after the run holds, per row tile, the column minima over that tile's rows. -/
theorem final5
    (h5 : ∀ (n : ℕ) (h : n < cfg0.N) (hN : n < 256) (p : Fin 4) (q : Fin 512),
      (outsAt0 m c n h).2.1 (ix3 (0 : Fin 1) p q)
        = tileColMin (pk (m ((c : Thread nD τ).loc main_arg0)) (m ((c : Thread nD τ).loc main_arg1))) ⟨n / 16, by omega⟩ p ⟨512 * (n % 16) + q.val, by have := q.isLt; omega⟩) :
    ((dats m 0 c).arrAt 5 cfg0.N : O2.Idx → EReal) = o2 (pk (m ((c : Thread nD τ).loc main_arg0)) (m ((c : Thread nD τ).loc main_arg1))) :=
  (dats m 0 c).arrAt_eq_of_cover 5 (o2 (pk (m ((c : Thread nD τ).loc main_arg0)) (m ((c : Thread nD τ).loc main_arg1))))
    (fun t _ => flushed5_eq m c _ h5 t) cover5

end Cert.KernelIdeal.ChamferFinal
end
-- ==== Proof.Tail.lean ====
/-
  The end of the tiled program: from the two arrays it leaves to its result.

  When the grid of tiles has been run, the first output array [4, 8192, 1] holds, at (p, n, 0), the minimum over
  the second point index of the entries (p, n, ·), and the second output array [16, 4, 8192] holds, at (t, p, m),
  the minimum of the entries (p, ·, m) over the 512 first-point indices of row tile t. The operations that follow
  drop the first array's unit axis, take the minimum of the second array along its tile axis — the infimum over
  the sixteen tiles of the tiles' minima, which is the minimum over all 8192 first-point indices —, and then sum
  each of the two [4, 8192] tables, divide by its 32768 entries and add the two means. Those last operations are
  the same for any two tables, and are carried here as one function of them, never opened.

  `tail_eq` is that statement for the values; `run_tail` states the whole program's run with the result buffer's
  final contents named this way, beside the two argument arrays, which end as they were launched.
-/
import proofs.«155688_j2044404433131_2_alg».proof.Proof.Dist
import proofs.«155688_j2044404433131_2_alg».proof.Proof.LibMinReduce
import proofs.«155688_j2044404433131_2_alg».proof.Proof.Gen.KernelIdeal.Frame
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ChamferTail
open Cert.KernelIdeal Cert.KernelIdeal.Gen Cert.Chamfer
variable (m : (ℓ : Loc nD τ sig) → Buf (Elt Ideal) ℓ) (c : Dev nD)

/-- The operations after the region, read at the result: the common end applied to the first output array with
    its unit axis dropped and to the second output array's minimum along its first axis. -/
theorem tail_read (v : Valuation τ sig (Elt Ideal)) :
    StableHlo.after (hostOps1 (F := Ideal)) v (Proc.devRef .tc main_v16)
      = Cert.Chamfer.tail reducesTo_S4x8192_S_d0_1 h_S_
          (fun i => shapeCast S4x8192 (v (Proc.devRef .tc main_v9_0)) shapeCasts_S4x8192x1_S4x8192 i)
          (Host.reduce FloatOps.minimumf (v (Proc.devRef .tc main_v9_1)) (constant (F := Ideal) S_ .f32 0x7F800000#32) reducesTo_S16x4x8192_S4x8192_d0 h_S_) := by
  after_results
  rfl

/-- Dropping the trailing unit axis of the row minima leaves the row minima. -/
theorem reshape_o1 (P : Fin 4 → Fin 8192 → Fin 8192 → EReal) (h : O1.ShapeCasts Mat) :
    (fun i => shapeCast Mat (o1 P) h i) = fun j : Mat.Idx => rowMin P (j 0) (j 1) := by
  funext j
  obtain ⟨p, n, rfl⟩ : ∃ (p : Fin 4) (n : Fin 8192), j = ix2 p n := ⟨j 0, j 1, eq_ix2 j⟩
  refine (shapeCast_apply (o1 P) h (ix2 p n) (ix3 p n (0 : Fin 1)) ?_).trans rfl
  rw [Shape.rowMajor_val_three, Shape.rowMajor_val_two]
  show (p.val * 8192 + n.val) * 1 + 0 = p.val * 8192 + n.val
  omega

/-- A reduced index (p, m) with the tile coordinate put back is (tile, p, m). -/
theorem lift_ix2 (h : O2.Reduces [0] Mat) (p : Fin 4) (mm : Fin 8192) (ii : Fin 16) :
    h.lift (ix2 p mm) ii = ix3 ii p mm := by
  funext a; apply Fin.ext
  fin_cases a <;> rfl

/-- The minimum over the sixteen row tiles of the tiles' column minima is the column minimum. -/
theorem reduce_o2 (P : Fin 4 → Fin 8192 → Fin 8192 → EReal) (h' : O2.ReducesTo [0] Mat) (hu : 0 < Sc.numel) :
    Host.reduce FloatOps.minimumf (o2 P) (constant (F := Ideal) Sc .f32 0x7F800000#32) h' hu
      = fun j : Mat.Idx => colMin P (j 0) (j 1) := by
  funext j
  obtain ⟨p, mm, rfl⟩ : ∃ (p : Fin 4) (mm : Fin 8192), j = ix2 p mm := ⟨j 0, j 1, eq_ix2 j⟩
  have h : O2.Reduces [0] Mat := by decide
  refine (Ideal.hostReduce_minimumf_single_iInf (o2 P) h' h hu (ix2 p mm)).trans ?_
  refine Eq.trans ?_ (iInf_tileColMin P p mm)
  show (⨅ ii : Fin 16, o2 P (h.lift (ix2 p mm) ii)) = ⨅ ii : Fin 16, tileColMin P ii p mm
  exact iInf_congr fun ii => (congrArg (o2 P) (lift_ix2 h p mm ii)).trans rfl

/-- The result of the operations after the region, from what the two output arrays hold when the region ends:
    the first the row minima on a trailing unit axis, the second the tiles' column minima. -/
theorem tail_eq (P : Fin 4 → Fin 8192 → Fin 8192 → EReal)
    (h4 : ((dats m 0 c).arrAt 4 cfg0.N : O1.Idx → EReal) = o1 P)
    (h5 : ((dats m 0 c).arrAt 5 cfg0.N : O2.Idx → EReal) = o2 P) :
    (Pipeline.afterTail₀ cfgs (dats m) 0 (V0 m) [hostOps1] c main_v16 : Sc.Idx → EReal)
      = Cert.Chamfer.tail reducesTo_S4x8192_S_d0_1 h_S_ (fun j => rowMin P (j 0) (j 1)) (fun j => colMin P (j 0) (j 1)) := by
  unfold Pipeline.afterTail₀
  show StableHlo.after hostOps1 _ (Proc.devRef .tc main_v16) = _
  rw [tail_read]
  have e4 : Pipeline.withArrays (cfgs 0).spec c (V0 m c) (fun w => (dats m 0 c).arrAt w (cfgs 0).N) (Proc.devRef .tc main_v9_0) = o1 P :=
    (Pipeline.withArrays_arr spec0 launch0.win.arr_inj c _ _ 4).trans h4
  have e5 : Pipeline.withArrays (cfgs 0).spec c (V0 m c) (fun w => (dats m 0 c).arrAt w (cfgs 0).N) (Proc.devRef .tc main_v9_1) = o2 P :=
    (Pipeline.withArrays_arr spec0 launch0.win.arr_inj c _ _ 5).trans h5
  rw [e4, e5]
  exact congrArg₂ (Cert.Chamfer.tail reducesTo_S4x8192_S_d0_1 h_S_)
    (reshape_o1 P shapeCasts_S4x8192x1_S4x8192) (reduce_o2 P reducesTo_S16x4x8192_S4x8192_d0 h_S_)

/-- The program's run with its result named: on every core the result buffer ends holding the common end of the
    row minima and the column minima, and the two argument arrays end as launched. -/
theorem run_tail (ρ : Dev nD → PrngReg) (P : Dev nD → Fin 4 → Fin 8192 → Fin 8192 → EReal)
    (h4 : ∀ c, ((dats m 0 c).arrAt 4 cfg0.N : O1.Idx → EReal) = o1 (P c))
    (h5 : ∀ c, ((dats m 0 c).arrAt 5 cfg0.N : O2.Idx → EReal) = o2 (P c)) :
    θ_run defs (onTc (τ := τ) (main (F := Ideal))) ⟨m, fun _ => 0, ρ⟩ fun r => ∀ c : Dev nD,
      r.2.mem ((c.tc : Thread nD τ).loc main_v16)
          = Cert.Chamfer.tail reducesTo_S4x8192_S_d0_1 h_S_ (fun j => rowMin (P c) (j 0) (j 1)) (fun j => colMin (P c) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun r h c =>
    ⟨((h c).2 main_v16 (Pipeline.mem_restRefs_of main_v16 (by decide) (by decide))).trans (tail_eq m c (P c) (h4 c) (h5 c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.ChamferTail
end
-- ==== Proof.lean ====
/-
  Chamfer distance of two clouds of 8192 points in three coordinates, in four batches: a tiled program against
  the plain one, at the ideal float values.

  Both programs form the table of squared distances P[p, n, m] = ‖a_n‖² + ‖b_m‖² − 2 a_n·b_m, take its minima
  along m (nearest b for each a) and along n (nearest a for each b), and add the two tables' means.
  The plain program subtracts twice the dot product (`pr`); the tiled one pre-scales b by −2 and adds three
  products (`pk`): on finite inputs the same real number (`pk_eq_pr`) — the one place the precondition is used.
  The tiled program walks a 16 × 16 grid of (512 × 512) tiles. Along a row of tiles it keeps, per table row,
  128 running minima — lane l holding the minimum over the columns ≡ l (mod 128) seen so far — and takes the
  minimum over the lanes after the last tile: the minimum over all columns. For each tile it also writes the
  column minima over the tile's 512 rows; the minimum over the sixteen row tiles of those is the minimum over all
  rows. Every minimum here is an infimum over a finite index set, so the regroupings are `le_iInf_iff`
  and arithmetic on the indices. The two means are the same operations applied to equal tables.
-/
import proofs.«155688_j2044404433131_2_alg».proof.Defs
import proofs.«155688_j2044404433131_2_alg».proof.Proof.Gen.Kernel
import proofs.«155688_j2044404433131_2_alg».proof.Proof.Gen.Kernel.Frame
import proofs.«155688_j2044404433131_2_alg».proof.Proof.Gen.KernelIdeal
import proofs.«155688_j2044404433131_2_alg».proof.Proof.Gen.KernelIdeal.Frame
import proofs.«155688_j2044404433131_2_alg».proof.Proof.Gen.ReferenceIdeal
import proofs.«155688_j2044404433131_2_alg».proof.Proof.Gen.Pre_finite_inputs
import proofs.«155688_j2044404433131_2_alg».proof.Proof.Gen.ReferenceIdeal.Run
import proofs.«155688_j2044404433131_2_alg».proof.Proof.Gen.ReferenceIdeal.Read
import proofs.«155688_j2044404433131_2_alg».proof.Proof.Dist
import proofs.«155688_j2044404433131_2_alg».proof.Proof.Ref
import proofs.«155688_j2044404433131_2_alg».proof.Proof.Finite
import proofs.«155688_j2044404433131_2_alg».proof.Proof.Inv
import proofs.«155688_j2044404433131_2_alg».proof.Proof.Final
import proofs.«155688_j2044404433131_2_alg».proof.Proof.Tail
import Idealize.ShloMosaic.Adequacy
import Idealize.ShloMosaic.Init

noncomputable section

namespace Cert.Proof

open Idealize.ShloMosaic Idealize.ShloMosaic.TcCoe Idealize.SL.Sem Cert.Chamfer

/-- The three programs run, fault nowhere, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two clouds, both finite, the two programs end with the same number. -/
theorem algebraic : Cert.algebraic_KernelIdeal_ReferenceIdeal := by
  intro m ρ m' ρ' hpre hagree
  refine ⟨_, Cert.KernelIdeal.ChamferTail.run_tail m ρ
    (fun c => pk (m ((c : Thread Cert.KernelIdeal.nD Cert.KernelIdeal.τ).loc Cert.KernelIdeal.main_arg0))
      (m ((c : Thread Cert.KernelIdeal.nD Cert.KernelIdeal.τ).loc Cert.KernelIdeal.main_arg1)))
    (fun c => Cert.KernelIdeal.ChamferFinal.final4 m c fun n h hN h15 p r => Cert.KernelIdeal.ChamferInv.out4_eq m c n h hN h15 p r)
    (fun c => Cert.KernelIdeal.ChamferFinal.final5 m c fun n h hN p q => Cert.KernelIdeal.ChamferInv.out5_eq m c n h hN p q), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Chamfer.result_eq, (hagree c).1, (hagree c).2]
  have hf := Cert.Chamfer.finite_of_pre _ _ (hpre c)
  have e : pr (m ((c : Thread Cert.KernelIdeal.nD Cert.KernelIdeal.τ).loc Cert.KernelIdeal.main_arg0))
        (m ((c : Thread Cert.KernelIdeal.nD Cert.KernelIdeal.τ).loc Cert.KernelIdeal.main_arg1))
      = pk (m ((c : Thread Cert.KernelIdeal.nD Cert.KernelIdeal.τ).loc Cert.KernelIdeal.main_arg0))
        (m ((c : Thread Cert.KernelIdeal.nD Cert.KernelIdeal.τ).loc Cert.KernelIdeal.main_arg1)) :=
    funext fun p => funext fun n => funext fun k => (pk_eq_pr _ _ hf.1 hf.2 p n k).symm
  rw [e]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
